-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BitsStep.lean ====
/-
  One grid point of the loss kernel, in its three shapes.

  The kernel computes, per query row i, log( (Σ_{j same class} e^{−W_ij} − e^{−W_ii}) · Σ_{j other class} e^{W_ij} ) with
  W_ij = clip(γ·⟨x_i, x_j⟩, −16, 16), sweeping the key rows in 8 blocks of 1024 and keeping three 1024×1 columns between
  blocks: the same-class sum so far, the other-class sum so far, and the self term e^{−W_ii}. A grid point is one
  (query block, key block) pair. At the first key block the columns are reset before use; at every key block both sums
  take the block's contribution; at the last the output block is written. Each theorem below runs the kernel body once
  on whole staging buffers and says what every buffer holds afterwards, as the body's own arithmetic applied to what
  the buffers held before.
-/
import proofs.«117846_j26147760898823_2_alg».proof.Proof.Gen.Kernel.Launch
import proofs.«117846_j26147760898823_2_alg».proof.Proof.Gen.Kernel.Skeleton
import proofs.«117846_j26147760898823_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The branch taken at the first key block of a row of blocks (grid coordinate 1 is 0), -/
abbrev condFirst (i : grid0.Coords) : Prop := (Scalar.cmpi .ne (Scalar.extui (Scalar.cmpi .eq (BitVec.ofNat 32 (i 1).val) 0#32)) 0#32) = 1#1
/-- and at its last (grid coordinate 1 is 7). -/
abbrev condLast (i : grid0.Coords) : Prop := k0_cond2 i = 1#1

theorem hz2 : (![0, 0] : Fin 2 → ℕ) = fun _ => 0 := by funext a; fin_cases a <;> rfl

/-- The running same-class sum after one more key block: the old sum plus this block's same-class row sums. -/
def posNext (x0 x1 : Vec F S1024x256 .bf16) (rt : Vec F S1024x1 .i32) (ct : Vec F S1x1024 .i32) (p : Vec F S1024x1 .f32) : Vec F S1024x1 .f32 :=
  k0_pay1 (k0_pay11 x0 x1 rt ct p)
/-- The running other-class sum after one more key block: the old sum plus (all − same-class) of this block. -/
def negNext (x0 x1 : Vec F S1024x256 .bf16) (rt : Vec F S1024x1 .i32) (ct : Vec F S1x1024 .i32) (n : Vec F S1024x1 .f32) : Vec F S1024x1 .f32 :=
  k0_pay2 (k0_pay10 x0 x1 rt ct) n

set_option maxHeartbeats 2000000 in
/-- The first key block of a row of blocks: the two sums restart from zero and take this block's share; the self term
    is set from the row's squared norms; the output buffer is left as found. -/
theorem kernel_first (c : Dev nD) (i : grid0.Coords) (E : Set ℕ)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : condFirst i) (hc1 : ¬ condLast i)
    (x0 x1 : Vec F S1024x256 .bf16) (rt : Vec F S1024x1 .i32) (ct : Vec F S1x1024 .i32) (rn xo p n s : Vec F S1024x1 .f32)
    (K : PUnit → sProp 𝕄) :
    iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare p ∗ owns (c : Thread nD τ) arg9 fullShare n ∗ owns (c : Thread nD τ) arg10 fullShare s
        ∗ (iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare (posNext x0 x1 rt ct k0_pay4) ∗ owns (c : Thread nD τ) arg9 fullShare (negNext x0 x1 rt ct k0_pay5) ∗ owns (c : Thread nD τ) arg10 fullShare (k0_pay6 rn)) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2; subst hf3; subst hf4; subst hf5; subst hf6; subst hf7; subst hf8; subst hf9; subst hf10
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  isplitl [H9]
  · iexists _; isplitr
    swap; · iexact H9
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  iexists _; isplitr
  swap; · iexact H10
  ipureintro
  sl_unfold_words
  rw [View.read_writes_eq_canon _ _ _ (fun y => ⟨_, List.Mem.head _, View.mem_set_unit_zero hz2 inb_S1024x1_S1024x1_0_0 y⟩)]
  simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]

set_option maxHeartbeats 2000000 in
/-- A middle key block: both running sums advance, the self term and the output buffer are left as found. -/
theorem kernel_mid (c : Dev nD) (i : grid0.Coords) (E : Set ℕ)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ condFirst i) (hc1 : ¬ condLast i)
    (x0 x1 : Vec F S1024x256 .bf16) (rt : Vec F S1024x1 .i32) (ct : Vec F S1x1024 .i32) (rn xo p n s : Vec F S1024x1 .f32)
    (K : PUnit → sProp 𝕄) :
    iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare p ∗ owns (c : Thread nD τ) arg9 fullShare n ∗ owns (c : Thread nD τ) arg10 fullShare s
        ∗ (iprop(owns (c : Thread nD τ) arg2 fullShare x0 ∗ owns (c : Thread nD τ) arg3 fullShare x1 ∗ owns (c : Thread nD τ) arg4 fullShare rt
            ∗ owns (c : Thread nD τ) arg5 fullShare ct ∗ owns (c : Thread nD τ) arg6 fullShare rn ∗ owns (c : Thread nD τ) arg7 fullShare xo
            ∗ owns (c : Thread nD τ) arg8 fullShare (posNext x0 x1 rt ct p) ∗ owns (c : Thread nD τ) arg9 fullShare (negNext x0 x1 rt ct n)
            ∗ owns (c : Thread nD τ) arg10 fullShare s) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2; subst hf3; subst hf4; subst hf5; subst hf6; subst hf7; subst hf8; subst hf9; subst hf10
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero hz2 inb_S1024x1_S1024x1_0_0 y⟩), View.canon_unit_zero hz2]
    sl_unfold_words
    simp only [View.readAt_eq_ld, View.ld_unit_zero (S := S1024x256) hz2, View.ld_unit_zero (S := S1024x1) hz2, View.ld_unit_zero (S := S1x1024) hz2]
    rfl
  isplitl [H9]
  · iexists _; isplitr
    swap; · iexact H9
    ipureintro
    rw [View.read_writes_eq_canon _ _ _ (fun y => ⟨_, List.mem_singleton_self _, View.mem_set_unit_zero hz2 inb_S1024x1_S1024x1_0_0 y⟩), View.canon_unit_zero hz2]
    sl_unfold_words
    simp only [View.readAt_eq_ld, View.ld_unit_zero (S := S1024x256) hz2, View.ld_unit_zero (S := S1024x1) hz2, View.ld_unit_zero (S := S1x1024) hz2]
    rfl
  iexists f10; isplitr; · ipureintro; rfl
  iexact H10

set_option maxHeartbeats 2000000 in
/-- The last key block of a row of blocks: both sums advance, and the output buffer takes
    log((same-class sum − self term) · other-class sum). -/
theorem kernel_last (c : Dev nD) (i : grid0.Coords) (E : Set ℕ)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ condFirst i) (hc1 : condLast i)
    (x0 x1 : Vec F S1024x256 .bf16) (rt : Vec F S1024x1 .i32) (ct : Vec F S1x1024 .i32) (rn xo p n s : Vec F S1024x1 .f32)
    (K : PUnit → sProp 𝕄) :
    iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare p ∗ owns (c : Thread nD τ) arg9 fullShare n ∗ owns (c : Thread nD τ) arg10 fullShare s
        ∗ (iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare (k0_pay3 (posNext x0 x1 rt ct p) s (negNext x0 x1 rt ct n))
        ∗ owns (c : Thread nD τ) arg8 fullShare (posNext x0 x1 rt ct p) ∗ owns (c : Thread nD τ) arg9 fullShare (negNext x0 x1 rt ct n) ∗ owns (c : Thread nD τ) arg10 fullShare s) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2; subst hf3; subst hf4; subst hf5; subst hf6; subst hf7; subst hf8; subst hf9; subst hf10
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  isplitl [H8]
  · iexists _; isplitr
    swap; · iexact H8
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  isplitl [H9]
  · iexists _; isplitr
    swap; · iexact H9
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  iexists f10; isplitr; · ipureintro; rfl
  iexact H10

end Cert.Kernel.Hand
end
-- ==== Proof.BitsPoints.lean ====
import proofs.«117846_j26147760898823_2_alg».proof.Proof.Gen.Kernel.Launch
import proofs.«117846_j26147760898823_2_alg».proof.Proof.Gen.Kernel.Skeleton
import proofs.«117846_j26147760898823_2_alg».proof.Proof.Gen.Kernel.Points
import proofs.«117846_j26147760898823_2_alg».proof.Proof.BitsStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The kernel region point by point

The grid is 8 × 8: point `t` handles query-row block `t / 8` against key-row block `t % 8`. Three scratch columns are
carried from point to point within a row of blocks: the running same-class sum, the running other-class sum, and the
self term exp(−clip(‖q‖²·γ)). They restart where `t % 8 = 0`; where `t % 8 = 7` the output block takes
log((same − self) · other). Everything is stated at the contents `V` the region finds in the TensorCore's buffers. -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first-block branch is taken exactly at the points ≡ 0 (mod 8), -/
theorem hcondFirst : ∀ t : Fin cfg0.N, condFirst (grid0.coords t) ↔ t.val % 8 = 0 :=
  (by decide +kernel : ∀ t : Fin grid0.N, condFirst (grid0.coords t) ↔ t.val % 8 = 0)
/-- the last-block branch exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- Off the last key block the output window is idle and not written back; on it, it is live. -/
theorem idle5 : ∀ t : Fin cfg0.N, ¬ t.val % 8 = 7 → cfg0.idle 5 (grid0.coords t) = true := by decide +kernel
theorem noFlush5 : ∀ t : Fin cfg0.N, ¬ t.val % 8 = 7 → (cfg0.win 5).flush t = false := by decide +kernel
theorem live5 : ∀ t : Fin cfg0.N, t.val % 8 = 7 → cfg0.idle 5 (grid0.coords t) = false := by decide +kernel

/-- The three scratch columns (same-class sum, other-class sum, self term) after the body at point `n`: restarted from
    zero at the first key block of a row of blocks, advanced by the point's blocks otherwise. -/
def stAfter (c : Dev nD) : (n : ℕ) → n < cfg0.N → Vec F S1024x1 .f32 × Vec F S1024x1 .f32 × Vec F S1024x1 .f32
  | 0, hn => (posNext (iblk V c 0 ⟨0, hn⟩) (iblk V c 1 ⟨0, hn⟩) (iblk V c 2 ⟨0, hn⟩) (iblk V c 3 ⟨0, hn⟩) k0_pay4,
              negNext (iblk V c 0 ⟨0, hn⟩) (iblk V c 1 ⟨0, hn⟩) (iblk V c 2 ⟨0, hn⟩) (iblk V c 3 ⟨0, hn⟩) k0_pay5,
              k0_pay6 (iblk V c 4 ⟨0, hn⟩))
  | n + 1, hn =>
    if (n + 1) % 8 = 0 then
      (posNext (iblk V c 0 ⟨n + 1, hn⟩) (iblk V c 1 ⟨n + 1, hn⟩) (iblk V c 2 ⟨n + 1, hn⟩) (iblk V c 3 ⟨n + 1, hn⟩) k0_pay4,
       negNext (iblk V c 0 ⟨n + 1, hn⟩) (iblk V c 1 ⟨n + 1, hn⟩) (iblk V c 2 ⟨n + 1, hn⟩) (iblk V c 3 ⟨n + 1, hn⟩) k0_pay5,
       k0_pay6 (iblk V c 4 ⟨n + 1, hn⟩))
    else
      (posNext (iblk V c 0 ⟨n + 1, hn⟩) (iblk V c 1 ⟨n + 1, hn⟩) (iblk V c 2 ⟨n + 1, hn⟩) (iblk V c 3 ⟨n + 1, hn⟩) (stAfter c n (Nat.lt_of_succ_lt hn)).1,
       negNext (iblk V c 0 ⟨n + 1, hn⟩) (iblk V c 1 ⟨n + 1, hn⟩) (iblk V c 2 ⟨n + 1, hn⟩) (iblk V c 3 ⟨n + 1, hn⟩) (stAfter c n (Nat.lt_of_succ_lt hn)).2.1,
       (stAfter c n (Nat.lt_of_succ_lt hn)).2.2)

theorem stAfter_first (c : Dev nD) (t : Fin cfg0.N) (h0 : t.val % 8 = 0) :
    stAfter V c t.val t.isLt = (posNext (iblk V c 0 t) (iblk V c 1 t) (iblk V c 2 t) (iblk V c 3 t) k0_pay4,
      negNext (iblk V c 0 t) (iblk V c 1 t) (iblk V c 2 t) (iblk V c 3 t) k0_pay5, k0_pay6 (iblk V c 4 t)) := by
  obtain ⟨n, hn⟩ := t
  cases n with
  | zero => rfl
  | succ n => exact (if_pos h0).trans rfl

theorem stAfter_next (c : Dev nD) (t : Fin cfg0.N) (h0 : ¬ t.val % 8 = 0) :
    stAfter V c t.val t.isLt = (posNext (iblk V c 0 t) (iblk V c 1 t) (iblk V c 2 t) (iblk V c 3 t) (stAfter V c (t.val - 1) (Nat.lt_of_le_of_lt (Nat.sub_le _ _) t.isLt)).1,
      negNext (iblk V c 0 t) (iblk V c 1 t) (iblk V c 2 t) (iblk V c 3 t) (stAfter V c (t.val - 1) (Nat.lt_of_le_of_lt (Nat.sub_le _ _) t.isLt)).2.1,
      (stAfter V c (t.val - 1) (Nat.lt_of_le_of_lt (Nat.sub_le _ _) t.isLt)).2.2) := by
  obtain ⟨n, hn⟩ := t
  cases n with
  | zero => exact absurd (Nat.zero_mod _) h0
  | succ n => exact (if_neg h0).trans rfl

/-- What the output block takes at point `t` (consulted only at the last key block of a row of blocks). -/
def outAt (c : Dev nD) (t : Fin cfg0.N) : Vec F S1024x1 .f32 :=
  k0_pay3 (stAfter V c t.val t.isLt).1 (stAfter V c t.val t.isLt).2.2 (stAfter V c t.val t.isLt).2.1

abbrev scr0 : Memref sig .tc .vmem S1024x1 .f32 := Memref.whole cc0_scratch0
abbrev scr1 : Memref sig .tc .vmem S1024x1 .f32 := Memref.whole cc0_scratch1
abbrev scr2 : Memref sig .tc .vmem S1024x1 .f32 := Memref.whole cc0_scratch2

/-- The kernel's scoped rest is its three scratch columns, each owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The region's invariant before position `n`: at the start the scratch columns hold anything; afterwards what the
    point before left. -/
def PhiS (c : Dev nD) : (n : ℕ) → n ≤ cfg0.N → sProp 𝕄
  | 0, _ => Pipeline.ΦA spec0 c
  | n + 1, hn => iprop(iprop(owns (c : Thread nD τ) scr0 fullShare (stAfter V c n hn).1 ∗ owns (c : Thread nD τ) scr1 fullShare (stAfter V c n hn).2.1
      ∗ owns (c : Thread nD τ) scr2 fullShare (stAfter V c n hn).2.2) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scr0 fullShare (stAfter V c n hn).1 ∗ owns (c : Thread nD τ) scr1 fullShare (stAfter V c n hn).2.1
      ∗ owns (c : Thread nD τ) scr2 fullShare (stAfter V c n hn).2.2) ∗ (∃ r, prngReg c r)) := rfl
theorem PhiS_pos (c : Dev nD) (n : ℕ) (h : n ≤ cfg0.N) (hz : n ≠ 0) :
    PhiS V c n h = iprop(iprop(owns (c : Thread nD τ) scr0 fullShare (stAfter V c (n - 1) (by omega)).1 ∗ owns (c : Thread nD τ) scr1 fullShare (stAfter V c (n - 1) (by omega)).2.1
      ∗ owns (c : Thread nD τ) scr2 fullShare (stAfter V c (n - 1) (by omega)).2.2) ∗ (∃ r, prngReg c r)) := by
  cases n with
  | zero => exact absurd rfl hz
  | succ n => rfl

/-- The proof data of the pipeline on core `c`: the arrays as the region finds them; each input's buffer left at its
    block; the output's at `outAt`; the invariant `PhiS`; nothing owed. The two windows that read one array each hold
    half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = outAt V c t := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 V c).before 4 t d = iblk V c 4 t :=
  ((dat0 V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem leaves_in (c : Dev nD) (w : Fin cfg0.W) (hw : w.val < 5) (t : Fin cfg0.N) :
    (dat0 V c).leavesExact w t = owns (c : Thread nD τ) ((cfg0.win w).stage (cfg0.slots t w)) fullShare ((dat0 V c).after w t) := by
  have hl : cfg0.idle w (grid0.coords t) = false := by
    obtain ⟨k, hk⟩ := w
    match k, hk, hw with
    | 0, _, _ => rfl
    | 1, _, _ => rfl
    | 2, _, _ => rfl
    | 3, _, _ => rfl
    | 4, _, _ => rfl
  unfold Dat.leavesExact; rw [hl]

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; `t % 8` says which of the three cases the point is
    in; the invariant hands over the scratch columns at what the point before left (anything at the very first point)
    and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  rw [leaves_in V c 0 (by decide) t, leaves_in V c 1 (by decide) t, leaves_in V c 2 (by decide) t, leaves_in V c 3 (by decide) t, leaves_in V c 4 (by decide) t,
    after_0, after_1, after_2, after_3, after_4]
  have hN : t.val < 64 := lt_of_lt_of_eq t.isLt (show cfg0.N = 64 from N_0)
  by_cases h0 : t.val % 8 = 0
  · have h1 : ¬ t.val % 8 = 7 := by omega
    rw [Dat.leavesExact_idle (dat0 V c) 5 t (idle5 t h1) (noFlush5 t h1), stAfter_first V c t h0]
    by_cases hz : t.val = 0
    · rw [PhiS_castSucc V c t, PhiS_zero V c _ _ hz, PhiA_eq]
      iintro ⟨⟨⟨⟨%p, HS0⟩, ⟨%n, HS1⟩, ⟨%s, HS2⟩⟩, Hg⟩, Ho, ⟨%d0, H0⟩, ⟨%d1, H1⟩, ⟨%d2, H2⟩, ⟨%d3, H3⟩, ⟨%d4, H4⟩, ⟨%d5, H5⟩⟩
      iapply (kernel_first c (grid0.coords t) Set.univ _ _ _ _ _ _ _ _ _ _ _ _ _ _ _ _ _ _ ((hcondFirst t).mpr h0) (fun h => h1 ((hcondLast t).mp h))
        (iblk V c 0 t) (iblk V c 1 t) (iblk V c 2 t) (iblk V c 3 t) (iblk V c 4 t) _ p n s _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (kernel_first c (grid0.coords t) Set.univ _ _ _ _ _ _ _ _ _ _ _ _ _ _ _ _ _ _ ((hcondFirst t).mpr h0) (fun h => h1 ((hcondLast t).mp h))
        (iblk V c 0 t) (iblk V c 1 t) (iblk V c 2 t) (iblk V c 3 t) (iblk V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [PhiS_castSucc V c t, PhiS_pos V c _ _ hz, stAfter_next V c t h0]
    by_cases h1 : t.val % 8 = 7
    · rw [show (dat0 V c).leavesExact 5 t = owns (c : Thread nD τ) (st0_5 t) fullShare ((dat0 V c).after 5 t) from by
        unfold Dat.leavesExact; rw [live5 t h1], after_5]
      unfold outAt; rw [stAfter_next V c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (kernel_last c (grid0.coords t) Set.univ _ _ _ _ _ _ _ _ _ _ _ _ _ _ _ _ _ _ (fun h => h0 ((hcondFirst t).mp h)) ((hcondLast t).mpr h1)
        (iblk V c 0 t) (iblk V c 1 t) (iblk V c 2 t) (iblk V c 3 t) (iblk V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle5 t h1) (noFlush5 t h1)]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (kernel_mid c (grid0.coords t) Set.univ _ _ _ _ _ _ _ _ _ _ _ _ _ _ _ _ _ _ (fun h => h0 ((hcondFirst t).mp h)) (fun h => h1 ((hcondLast t).mp h))
        (iblk V c 0 t) (iblk V c 1 t) (iblk V c 2 t) (iblk V c 3 t) (iblk V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point, -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the scratch columns' contents forgotten. -/
theorem hout (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA_eq]
  iintro ⟨⟨HS0, HS1, HS2⟩, Hg⟩
  isplitr [Hg]
  · isplitl [HS0]; · iexists _; iexact HS0
    isplitl [HS1]; · iexists _; iexact HS1
    iexists _; iexact HS2
  iexact Hg

end Region

end Cert.Kernel.Hand
end
-- ==== Proof.BitsRun.lean ====
import proofs.«117846_j26147760898823_2_alg».proof.Proof.Gen.Kernel.Launch
import proofs.«117846_j26147760898823_2_alg».proof.Proof.Gen.Kernel.Skeleton
import proofs.«117846_j26147760898823_2_alg».proof.Proof.Gen.Kernel.Points
import proofs.«117846_j26147760898823_2_alg».proof.Proof.BitsPoints
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

/-! # The whole program as three segments

@main is a stretch of host operations (the bf16 copy of the inputs, the rows' squared norms, the two reshapes of the
labels), the kernel region, and a second stretch (the mean of the region's result). The buffer contents at each
boundary are named; the region takes the contents at its entry as the parameter of the point-by-point description. The
bf16 copy is read by two windows of the region, each of which holds half of it while the region runs. -/

section Run

variable (m : (ℓ : Loc nD τ sig) → Buf (Elt F) ℓ) (ρ : Dev nD → PrngReg)

/-- Core `c`'s buffers at launch, -/
abbrev W0 : Dev nD → Valuation τ sig (Elt F) := fun c b => m (c, b)
/-- after the first host stretch (the region's entry), -/
abbrev W1 : Dev nD → Valuation τ sig (Elt F) := fun c => StableHlo.after hostOps0 (W0 m c)
/-- the same read at the TensorCore's references, -/
abbrev V1 : (c : Dev nD) → (b : Ref sig .tc) → Buf (Elt F) ((c : Thread nD τ).loc b) := fun c b => W1 m c b
/-- at the region's exit: only the result array has changed, to what the write-backs leave, -/
def W2 (c : Dev nD) : Valuation τ sig (Elt F) :=
  Function.update (W1 m c) (Proc.devRef .tc main_v6) ((dat0 (V1 m) c).arrAt 5 cfg0.N)
abbrev V2 : (c : Dev nD) → (b : Ref sig .tc) → Buf (Elt F) ((c : Thread nD τ).loc b) := fun c b => W2 m c b
/-- and after the second host stretch. -/
abbrev W3 : Dev nD → Valuation τ sig (Elt F) := fun c => StableHlo.after hostOps1 (W2 m c)

theorem W2_out (c : Dev nD) : W2 m c (Proc.devRef .tc main_v6) = (dat0 (V1 m) c).arrAt 5 cfg0.N := by
  unfold W2; exact Function.update_self ..
theorem W2_of_ne (c : Dev nD) (b : Ref sig .tc) (hb : b ≠ main_v6) : W2 m c (Proc.devRef .tc b) = W1 m c (Proc.devRef .tc b) := by
  unfold W2; exact Function.update_of_ne (StableHlo.devRef_ne_of_ne hb) ..

/-! ## The region's arrays in and out of the thread state -/

/-- The five distinct buffers behind the six windows, listed. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v4) ↦{fullShare} V main_v4)
          ∗ (((c : Thread nD τ).loc main_v5) ↦{fullShare} V main_v5) ∗ (((c : Thread nD τ).loc main_v3) ↦{fullShare} V main_v3)
          ∗ (((c : Thread nD τ).loc main_v6) ↦{fullShare} V main_v6)) := by
  unfold Pipeline.arrBufs
  exact Idealize.SL.BI.bigSep_eq_bigSepL_of_eq [main_v0, main_v4, main_v5, main_v3, main_v6] (by decide) (by decide) _

/-- The six windows' arrays, listed, each at its share: the two readers of the bf16 copy hold a half each. -/
theorem arrays_eq (c : Dev nD) (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v4) ↦{fullShare} G 2) ∗ (((c : Thread nD τ).loc main_v5) ↦{fullShare} G 3)
          ∗ (((c : Thread nD τ).loc main_v3) ↦{fullShare} G 4) ∗ (((c : Thread nD τ).loc main_v6) ↦{fullShare} G 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

/-- ENTRY: the unscoped buffers at the entry contents are the region's arrays at those contents (the bf16 copy split
    between its two readers) and the rest. -/
theorem entry_arrays (c : Dev nD) :
    (unscopedBufs c (V1 m c) : sProp 𝕄)
      ⊢ iprop((dat0 (V1 m) c).arrays ((dat0 (V1 m) c).arrAt · 0) ∗ Pipeline.unscopedRest (Ix := Unit) (Name := ℕ) (U := UR sig nD τ) (Lvl := ℕ) spec0 c (V1 m c)) := by
  rw [Pipeline.unscopedBufs_split₀ cfgs (0 : Fin 1) winFacts₀0.arr_unscoped c (V1 m c), arrBufs_eq, arrays_eq]
  iintro ⟨⟨H0, H4, H5, H3, H6⟩, Hr⟩
  ihave H0' := (pointsTo_share (PosShare.mem_left_op_right fullShare)).1 $$ H0
  icases H0' with ⟨H0l, H0r⟩
  isplitr [Hr]
  · isplitl [H0l]; · iexact H0l
    isplitl [H0r]; · iexact H0r
    isplitl [H4]; · iexact H4
    isplitl [H5]; · iexact H5
    isplitl [H3]; · iexact H3
    iexact H6
  iexact Hr

/-- EXIT: the arrays at what the region leaves (the inputs as entered, the result at its write-backs) and the rest make
    the unscoped buffers at the exit contents. -/
theorem exit_arrays (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs c (V2 m c) : sProp 𝕄) := by
  have hrest : (Pipeline.unscopedRest (Ix := Unit) (Name := ℕ) (U := UR sig nD τ) (Lvl := ℕ) spec0 c (V2 m c) : sProp 𝕄)
      = Pipeline.unscopedRest spec0 c (V1 m c) := by
    unfold Pipeline.unscopedRest
    refine bigSep_congr fun b hb => ?_
    have hne : b ≠ main_v6 := fun e => (Finset.mem_sdiff.mp hb).2 (Finset.mem_image.mpr ⟨5, Finset.mem_univ _, e.symm⟩)
    rw [show V2 m c b = V1 m c b from W2_of_ne m c b hne]
  rw [Pipeline.unscopedBufs_split₀ cfgs (0 : Fin 1) winFacts₀0.arr_unscoped c (V2 m c), arrBufs_eq, arrays_eq, hrest]
  rw [(dat0 (V1 m) c).arrAt_in 0 rfl, (dat0 (V1 m) c).arrAt_in 1 rfl, (dat0 (V1 m) c).arrAt_in 2 rfl, (dat0 (V1 m) c).arrAt_in 3 rfl, (dat0 (V1 m) c).arrAt_in 4 rfl]
  rw [show V2 m c main_v0 = V1 m c main_v0 from W2_of_ne m c main_v0 (by decide), show V2 m c main_v4 = V1 m c main_v4 from W2_of_ne m c main_v4 (by decide),
    show V2 m c main_v5 = V1 m c main_v5 from W2_of_ne m c main_v5 (by decide), show V2 m c main_v3 = V1 m c main_v3 from W2_of_ne m c main_v3 (by decide),
    show V2 m c main_v6 = (dat0 (V1 m) c).arrAt 5 cfg0.N from W2_out m c]
  iintro ⟨⟨H0l, H0r, H4, H5, H3, H6⟩, Hr⟩
  isplitr [Hr]
  · isplitl [H0l H0r]
    · iapply (pointsTo_share (PosShare.mem_left_op_right fullShare)).2
      isplitl [H0l]; · iexact H0l
      iexact H0r
    isplitl [H4]; · iexact H4
    isplitl [H5]; · iexact H5
    isplitl [H3]; · iexact H3
    iexact H6
  iexact Hr

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The kernel region over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest (Ix := Unit) (Name := ℕ) (U := UR sig nD τ) (Lvl := ℕ) spec0 c (V1 m c)) := entry_arrays m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m) c)
    unfold Pipeline.ΦA
    iintro ⟨Hp, -, Hr⟩
    isplitl [Hr]; · iexact Hr
    iexact Hp
  hout c := by
    rw [Pipeline.ownSems0_none]
    refine BIBase.Entails.trans (hout (V1 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
          ∗ Pipeline.unscopedRest (Ix := Unit) (Name := ℕ) (U := UR sig nD τ) (Lvl := ℕ) spec0 c (V1 m c))
        ⊢ (unscopedBufs c (V2 m c) : sProp 𝕄) := exit_arrays m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of the TensorCore ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Run

end Cert.Kernel.Hand
end
-- ==== Proof.BitsFrame.lean ====
import proofs.«117846_j26147760898823_2_alg».proof.Proof.Gen.Kernel.Launch
import proofs.«117846_j26147760898823_2_alg».proof.Proof.Gen.Kernel.Skeleton
import proofs.«117846_j26147760898823_2_alg».proof.Proof.Gen.Kernel.Points
import proofs.«117846_j26147760898823_2_alg».proof.Proof.BitsRun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The arguments end as launched

No host operation writes an argument array and the region changes only its result array, so the last boundary's
contents at the two arguments are the launch memory; with the run, that is the frame claim. -/

section Frame

variable (m : (ℓ : Loc nD τ sig) → Buf (Elt F) ℓ) (ρ : Dev nD → PrngReg)

theorem hostOps0_keeps (b : Ref sig .tc) (hb : b ≠ main_v0 ∧ b ≠ main_v1 ∧ b ≠ main_cst ∧ b ≠ main_v2 ∧ b ≠ main_v3 ∧ b ≠ main_v4 ∧ b ≠ main_v5)
    (V : Valuation τ sig (Elt F)) : StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    obtain ⟨h0, h1, h2, h3, h4, h5, h6⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6⟩))

theorem hostOps1_keeps (b : Ref sig .tc) (hb : b ≠ main_cst_0 ∧ b ≠ main_v7 ∧ b ≠ main_cst_1 ∧ b ≠ main_v8)
    (V : Valuation τ sig (Elt F)) : StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    obtain ⟨h0, h1, h2, h3⟩ := hb
    exact ⟨StableHlo.devRef_ne_of_ne h0, StableHlo.devRef_ne_of_ne h1, StableHlo.devRef_ne_of_ne h2, StableHlo.devRef_ne_of_ne h3⟩))

theorem W3_main_arg0 (c : Dev nD) : W3 m c (Proc.devRef .tc main_arg0) = m ((c : Thread nD τ).loc main_arg0) :=
  (hostOps1_keeps main_arg0 (by decide) _).trans ((W2_of_ne m c main_arg0 (by decide)).trans (hostOps0_keeps main_arg0 (by decide) _))
theorem W3_main_arg1 (c : Dev nD) : W3 m c (Proc.devRef .tc main_arg1) = m ((c : Thread nD τ).loc main_arg1) :=
  (hostOps1_keeps main_arg1 (by decide) _).trans ((W2_of_ne m c main_arg1 (by decide)).trans (hostOps0_keeps main_arg1 (by decide) _))

/-- THE FRAME at any instance: @main terminates, nothing faulting, both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W3_main_arg0 m c),
    (h c _ (mem_uc main_arg1 (by decide))).trans (W3_main_arg1 m c)⟩) (run_all m ρ)

end Frame

end Cert.Kernel.Hand
end
-- ==== Proof.IdealStep.lean ====
/-
  One grid point of the loss kernel, in its three shapes.

  The kernel computes, per query row i, log( (Σ_{j same class} e^{−W_ij} − e^{−W_ii}) · Σ_{j other class} e^{W_ij} ) with
  W_ij = clip(γ·⟨x_i, x_j⟩, −16, 16), sweeping the key rows in 8 blocks of 1024 and keeping three 1024×1 columns between
  blocks: the same-class sum so far, the other-class sum so far, and the self term e^{−W_ii}. A grid point is one
  (query block, key block) pair. At the first key block the columns are reset before use; at every key block both sums
  take the block's contribution; at the last the output block is written. Each theorem below runs the kernel body once
  on whole staging buffers and says what every buffer holds afterwards, as the body's own arithmetic applied to what
  the buffers held before.
-/
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The branch taken at the first key block of a row of blocks (grid coordinate 1 is 0), -/
abbrev condFirst (i : grid0.Coords) : Prop := (Scalar.cmpi .ne (Scalar.extui (Scalar.cmpi .eq (BitVec.ofNat 32 (i 1).val) 0#32)) 0#32) = 1#1
/-- and at its last (grid coordinate 1 is 7). -/
abbrev condLast (i : grid0.Coords) : Prop := k0_cond2 i = 1#1

theorem hz2 : (![0, 0] : Fin 2 → ℕ) = fun _ => 0 := by funext a; fin_cases a <;> rfl

/-- The running same-class sum after one more key block: the old sum plus this block's same-class row sums. -/
def posNext (x0 x1 : Vec F S1024x256 .bf16) (rt : Vec F S1024x1 .i32) (ct : Vec F S1x1024 .i32) (p : Vec F S1024x1 .f32) : Vec F S1024x1 .f32 :=
  k0_pay1 (k0_pay11 x0 x1 rt ct p)
/-- The running other-class sum after one more key block: the old sum plus (all − same-class) of this block. -/
def negNext (x0 x1 : Vec F S1024x256 .bf16) (rt : Vec F S1024x1 .i32) (ct : Vec F S1x1024 .i32) (n : Vec F S1024x1 .f32) : Vec F S1024x1 .f32 :=
  k0_pay2 (k0_pay10 x0 x1 rt ct) n

set_option maxHeartbeats 2000000 in
/-- The first key block of a row of blocks: the two sums restart from zero and take this block's share; the self term
    is set from the row's squared norms; the output buffer is left as found. -/
theorem kernel_first (c : Dev nD) (i : grid0.Coords) (E : Set ℕ)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : condFirst i) (hc1 : ¬ condLast i)
    (x0 x1 : Vec F S1024x256 .bf16) (rt : Vec F S1024x1 .i32) (ct : Vec F S1x1024 .i32) (rn xo p n s : Vec F S1024x1 .f32)
    (K : PUnit → sProp 𝕄) :
    iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare p ∗ owns (c : Thread nD τ) arg9 fullShare n ∗ owns (c : Thread nD τ) arg10 fullShare s
        ∗ (iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare (posNext x0 x1 rt ct k0_pay4) ∗ owns (c : Thread nD τ) arg9 fullShare (negNext x0 x1 rt ct k0_pay5) ∗ owns (c : Thread nD τ) arg10 fullShare (k0_pay6 rn)) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2; subst hf3; subst hf4; subst hf5; subst hf6; subst hf7; subst hf8; subst hf9; subst hf10
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  isplitl [H9]
  · iexists _; isplitr
    swap; · iexact H9
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  iexists _; isplitr
  swap; · iexact H10
  ipureintro
  sl_unfold_words
  rw [View.read_writes_eq_canon _ _ _ (fun y => ⟨_, List.Mem.head _, View.mem_set_unit_zero hz2 inb_S1024x1_S1024x1_0_0 y⟩)]
  simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]

set_option maxHeartbeats 2000000 in
/-- A middle key block: both running sums advance, the self term and the output buffer are left as found. -/
theorem kernel_mid (c : Dev nD) (i : grid0.Coords) (E : Set ℕ)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ condFirst i) (hc1 : ¬ condLast i)
    (x0 x1 : Vec F S1024x256 .bf16) (rt : Vec F S1024x1 .i32) (ct : Vec F S1x1024 .i32) (rn xo p n s : Vec F S1024x1 .f32)
    (K : PUnit → sProp 𝕄) :
    iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare p ∗ owns (c : Thread nD τ) arg9 fullShare n ∗ owns (c : Thread nD τ) arg10 fullShare s
        ∗ (iprop(owns (c : Thread nD τ) arg2 fullShare x0 ∗ owns (c : Thread nD τ) arg3 fullShare x1 ∗ owns (c : Thread nD τ) arg4 fullShare rt
            ∗ owns (c : Thread nD τ) arg5 fullShare ct ∗ owns (c : Thread nD τ) arg6 fullShare rn ∗ owns (c : Thread nD τ) arg7 fullShare xo
            ∗ owns (c : Thread nD τ) arg8 fullShare (posNext x0 x1 rt ct p) ∗ owns (c : Thread nD τ) arg9 fullShare (negNext x0 x1 rt ct n)
            ∗ owns (c : Thread nD τ) arg10 fullShare s) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2; subst hf3; subst hf4; subst hf5; subst hf6; subst hf7; subst hf8; subst hf9; subst hf10
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    rw [View.read_writes_eq_canon _ _ _ (fun y => ⟨_, List.mem_singleton_self _, View.mem_set_unit_zero hz2 inb_S1024x1_S1024x1_0_0 y⟩), View.canon_unit_zero hz2]
    sl_unfold_words
    simp only [View.readAt_eq_ld, View.ld_unit_zero (S := S1024x256) hz2, View.ld_unit_zero (S := S1024x1) hz2, View.ld_unit_zero (S := S1x1024) hz2]
    rfl
  isplitl [H9]
  · iexists _; isplitr
    swap; · iexact H9
    ipureintro
    rw [View.read_writes_eq_canon _ _ _ (fun y => ⟨_, List.mem_singleton_self _, View.mem_set_unit_zero hz2 inb_S1024x1_S1024x1_0_0 y⟩), View.canon_unit_zero hz2]
    sl_unfold_words
    simp only [View.readAt_eq_ld, View.ld_unit_zero (S := S1024x256) hz2, View.ld_unit_zero (S := S1024x1) hz2, View.ld_unit_zero (S := S1x1024) hz2]
    rfl
  iexists f10; isplitr; · ipureintro; rfl
  iexact H10

set_option maxHeartbeats 2000000 in
/-- The last key block of a row of blocks: both sums advance, and the output buffer takes
    log((same-class sum − self term) · other-class sum). -/
theorem kernel_last (c : Dev nD) (i : grid0.Coords) (E : Set ℕ)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬ condFirst i) (hc1 : condLast i)
    (x0 x1 : Vec F S1024x256 .bf16) (rt : Vec F S1024x1 .i32) (ct : Vec F S1x1024 .i32) (rn xo p n s : Vec F S1024x1 .f32)
    (K : PUnit → sProp 𝕄) :
    iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare xo
        ∗ owns (c : Thread nD τ) arg8 fullShare p ∗ owns (c : Thread nD τ) arg9 fullShare n ∗ owns (c : Thread nD τ) arg10 fullShare s
        ∗ (iprop(owns (c : Thread nD τ) arg2 fullShare x0 ∗ owns (c : Thread nD τ) arg3 fullShare x1 ∗ owns (c : Thread nD τ) arg4 fullShare rt
        ∗ owns (c : Thread nD τ) arg5 fullShare ct ∗ owns (c : Thread nD τ) arg6 fullShare rn ∗ owns (c : Thread nD τ) arg7 fullShare (k0_pay3 (posNext x0 x1 rt ct p) s (negNext x0 x1 rt ct n))
        ∗ owns (c : Thread nD τ) arg8 fullShare (posNext x0 x1 rt ct p) ∗ owns (c : Thread nD τ) arg9 fullShare (negNext x0 x1 rt ct n) ∗ owns (c : Thread nD τ) arg10 fullShare s) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10) K := by
  simp only [cc0__loss_kernel_eq_skeleton]; unfold cc0__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2; subst hf3; subst hf4; subst hf5; subst hf6; subst hf7; subst hf8; subst hf9; subst hf10
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  isplitl [H8]
  · iexists _; isplitr
    swap; · iexact H8
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  isplitl [H9]
  · iexists _; isplitr
    swap; · iexact H9
    ipureintro
    sl_unfold_words
    rw [View.read_writes_eq_canon _ _ _ (fun y => ⟨_, List.Mem.head _, View.mem_set_unit_zero hz2 inb_S1024x1_S1024x1_0_0 y⟩)]
    simp only [View.readAt_eq_ld, View.readCov_unit_zero (S := S1024x1) _ hz2, View.canon_cons_unit_zero (S := S1024x1) hz2, View.canon_unit_zero (S := S1024x1) hz2, View.ld_unit_zero (S := S1024x256) hz2, View.ld_unit_zero (S := S1024x1) hz2, View.ld_unit_zero (S := S1x1024) hz2]
    rfl
  iexists f10; isplitr; · ipureintro; rfl
  iexact H10

end Cert.KernelIdeal.Hand
end
-- ==== Proof.LibColumn.lean ====
/-
A column read through layout operations.

A column of `a` entries is stored either as a vector of shape `[a]` or as a matrix of shape
`[a, 1]`.  Reshaping between the two keeps entry `p` at row `p` (the only column being
column `0`), and stretching the `[a, 1]` matrix to `[a, b]` repeats entry `p` along row
`p`: the result at `(p, q)` is the column at `(p, 0)`.  The same holds when the stretch or the
added unit axis is written as a broadcast along named axes, and a vector of `b` entries placed
along the second axis of a `[1, b]` matrix keeps entry `q` at `(0, q)`.
-/
import Idealize.ShloMosaic.Lib.ValueLayout
import Idealize.ShloMosaic.Lib.Pipeline.Value
import Idealize.ShloMosaic.Lib.ValueIdx

namespace Cert.LibColumn

open Idealize.ShloMosaic Idealize.ShloMosaic.ValueIdx

variable {α : Type}

/-! ### Reshaping between a vector and a one-column matrix -/

/-- An `[a]` vector reshaped to `[a, 1]` reads, at `(p, u)`, the vector at `p`, whatever the
    unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix reshaped to `[a]` reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-! ### Stretching a one-column matrix along its rows -/

/-- An `[a, 1]` matrix stretched to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same at an index not yet split into coordinates: the result at `j` is the column at
    `(j 0, 0)`. -/
theorem broadcastTo_a1_ab_apply' {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  obtain ⟨p, q, rfl⟩ : ∃ (p : Fin a) (q : Fin b), j = ix2 p q := ⟨j 0, j 1, eq_ix2 j⟩
  exact broadcastTo_a1_ab_apply v h p q

/-! ### The same operations written as broadcasts along named axes -/

/-- An `[a]` vector broadcast into `[a, 1]` along axis `0` reads, at `(p, u)`, the vector at
    `p`. -/
theorem broadcastInDim_a_a1_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` matrix broadcast into `[a, b]` along axes `0, 1` reads, at `(p, q)`, the column
    at `(p, 0)`. -/
theorem broadcastInDim_a1_ab_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector broadcast into `[1, b]` along axis `1` reads, at `(u, q)`, the vector at
    `q`. -/
theorem broadcastInDim_b_1b_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end Cert.LibColumn
-- ==== Proof.LibAxisFold.lean ====
/-
A matrix reduced along one axis, read at an index.

Reducing an `A × B` matrix over its rows (axis 0) leaves, at column `q`, the sum — or the maximum, folded from
the accumulator's value — of the entries `(r, q)` over the rows `r`; reducing over its columns (axis 1) leaves, at row
`p`, the same over the entries `(p, r)`. The exact sums and maxima of the extended reals are meant, so no order
of evaluation is left in the result.
-/
import Idealize.ShloMosaic.PureOps.Ideal.Laws
import Idealize.ShloMosaic.Lib.ValueIdx

noncomputable section

namespace Cert.LibAxisFold

open Idealize.ShloMosaic Idealize.ShloMosaic.ValueIdx

variable {A B : ℕ}

/-- Column `q` of the reduced vector comes from the entries `(r, q)`. -/
theorem lift_axis0 (h : (⟨2, ![A, B]⟩ : Shape).Reduces [0] ⟨1, ![B]⟩) (q : Fin B) (r : Fin A) :
    h.lift (ix1 q) r = ix2 r q :=
  funext fun a => Fin.ext (by match a with | ⟨0, _⟩ => rfl | ⟨1, _⟩ => rfl)

/-- Row `p` of the reduced vector comes from the entries `(p, r)`. -/
theorem lift_axis1 (h : (⟨2, ![A, B]⟩ : Shape).Reduces [1] ⟨1, ![A]⟩) (p : Fin A) (r : Fin B) :
    h.lift (ix1 p) r = ix2 p r :=
  funext fun a => Fin.ext (by match a with | ⟨0, _⟩ => rfl | ⟨1, _⟩ => rfl)

/-- The sum over the rows, at column `q`. -/
theorem sum_axis0 (v : FVec Ideal ⟨2, ![A, B]⟩ .f32) (acc : BitVec (FTy.f32).bits)
    (h : (⟨2, ![A, B]⟩ : Shape).Reduces [0] ⟨1, ![B]⟩) (hφ : FKind.Formats .f32) (hacc : acc = FKind.add.neutral .f32 hφ) (q : Fin B) :
    multiReduction .add [0] ⟨1, ![B]⟩ v acc h hφ hacc (ix1 q) = ∑ r : Fin A, v (ix2 r q) :=
  (Ideal.multiReduction_add_single v acc h hφ hacc (ix1 q)).trans
    (Finset.sum_congr rfl fun r _ => congrArg v (lift_axis0 h q r))

/-- The sum over the columns, at row `p`. -/
theorem sum_axis1 (v : FVec Ideal ⟨2, ![A, B]⟩ .f32) (acc : BitVec (FTy.f32).bits)
    (h : (⟨2, ![A, B]⟩ : Shape).Reduces [1] ⟨1, ![A]⟩) (hφ : FKind.Formats .f32) (hacc : acc = FKind.add.neutral .f32 hφ) (p : Fin A) :
    multiReduction .add [1] ⟨1, ![A]⟩ v acc h hφ hacc (ix1 p) = ∑ r : Fin B, v (ix2 p r) :=
  (Ideal.multiReduction_add_single v acc h hφ hacc (ix1 p)).trans
    (Finset.sum_congr rfl fun r _ => congrArg v (lift_axis1 h p r))

/-- The maximum over the rows, at column `q`, folded from the accumulator's value. -/
theorem max_axis0 (v : FVec Ideal ⟨2, ![A, B]⟩ .f32) (acc : BitVec (FTy.f32).bits)
    (h : (⟨2, ![A, B]⟩ : Shape).Reduces [0] ⟨1, ![B]⟩) (hφ : FKind.Formats .f32) (hacc : acc = FKind.maximumf.neutral .f32 hφ) (q : Fin B) :
    multiReduction .maximumf [0] ⟨1, ![B]⟩ v acc h hφ hacc (ix1 q)
      = (Finset.univ : Finset (Fin A)).fold max (Ideal.ofBits .f32 acc) fun r => v (ix2 r q) :=
  (Ideal.multiReduction_maximumf_single v acc h hφ hacc (ix1 q)).trans
    (congrArg (fun f => (Finset.univ : Finset (Fin A)).fold max (Ideal.ofBits .f32 acc) f)
      (funext fun r => congrArg v (lift_axis0 h q r)))

/-- The maximum over the columns, at row `p`, folded from the accumulator's value. -/
theorem max_axis1 (v : FVec Ideal ⟨2, ![A, B]⟩ .f32) (acc : BitVec (FTy.f32).bits)
    (h : (⟨2, ![A, B]⟩ : Shape).Reduces [1] ⟨1, ![A]⟩) (hφ : FKind.Formats .f32) (hacc : acc = FKind.maximumf.neutral .f32 hφ) (p : Fin A) :
    multiReduction .maximumf [1] ⟨1, ![A]⟩ v acc h hφ hacc (ix1 p)
      = (Finset.univ : Finset (Fin B)).fold max (Ideal.ofBits .f32 acc) fun r => v (ix2 p r) :=
  (Ideal.multiReduction_maximumf_single v acc h hφ hacc (ix1 p)).trans
    (congrArg (fun f => (Finset.univ : Finset (Fin B)).fold max (Ideal.ofBits .f32 acc) f)
      (funext fun r => congrArg v (lift_axis1 h p r)))

end Cert.LibAxisFold

end
-- ==== Proof.Spec.lean ====
/-
  The two row formulas the certificate joins.

  For inputs x (8192 rows of 256 numbers) and labels, write ⟨r, c⟩ for the inner product of rows r and c and
  W r c = min 16 (max (−16) (⟨r, c⟩ · γ)) for the scaled, clipped similarity (γ the single-precision 0.001; all literals
  are kept as the exact values their bit patterns denote). Two rows are of the same class when their labels agree.

  The kernel sweeps the columns in 8 blocks of 1024. Per block j it forms e = exp(−W) on same-class columns and exp(W)
  on the others, the same-class part `Sb j` of the block's sum of e and the whole sum `Tb j`, and ends each row with
      log( (Σ_j Sb j − exp(−W r r)) · Σ_j (Tb j − Sb j) ).
  The reference sums over all 8192 columns at once:
      log( Σ_{c same class, c ≠ r} exp(−W r c) · Σ_{c other class} exp(W r c) ).
  Both programs then average the 8192 rows.
-/
import Idealize.ShloMosaic.PureOps.Ideal
import Idealize.ShloMosaic.Lib.ValueIdx

noncomputable section

namespace Cert.Spec

open Idealize.ShloMosaic Idealize.ShloMosaic.ValueIdx
open scoped BigOperators

/-- The literals, as the extended reals their patterns denote: 0.001, −16, 16, 0 and 8192 in single precision. -/
def γ : EReal := Ideal.ofBits .f32 0x3A83126F#32
def lo : EReal := Ideal.ofBits .f32 0xC1800000#32
def hi : EReal := Ideal.ofBits .f32 0x41800000#32
def z : EReal := Ideal.ofBits .f32 0x00000000#32
def n8192 : EReal := Ideal.ofBits .f32 0x46000000#32

variable (X : (⟨2, ![8192, 256]⟩ : Shape).Idx → EReal) (T : (⟨1, ![8192]⟩ : Shape).Idx → BitVec 32)

/-- The scaled, clipped similarity of rows `r` and `c`. -/
def W (r c : Fin 8192) : EReal := min hi (max lo ((∑ d : Fin 256, X (ix2 r d) * X (ix2 c d)) * γ))

/-- Rows `r` and `c` carry the same label. -/
def same (r c : Fin 8192) : Prop := T (ix1 r) = T (ix1 c)

instance (r c : Fin 8192) : Decidable (same T r c) := by unfold same; infer_instance

/-- Column `k` of block `j`. -/
def col (j : Fin 8) (k : Fin 1024) : Fin 8192 := ⟨j.val * 1024 + k.val, by have := j.isLt; have := k.isLt; omega⟩

/-- The kernel's one exponential per entry: exp(−W) on same-class columns, exp(W) on the others. -/
def e (r c : Fin 8192) : EReal := Ideal.exp (if same T r c then z - W X r c else W X r c)

/-- The same-class part of block `j`'s sum of `e` along row `r`, -/
def Sb (r : Fin 8192) (j : Fin 8) : EReal := ∑ k : Fin 1024, if same T r (col j k) then e X T r (col j k) else z
/-- and the whole of it. -/
def Tb (r : Fin 8192) (j : Fin 8) : EReal := ∑ k : Fin 1024, e X T r (col j k)

/-- What the kernel leaves for row `r`. -/
def kernelRow (r : Fin 8192) : EReal :=
  Ideal.log (((∑ j : Fin 8, Sb X T r j) - Ideal.exp (z - W X r r)) * (∑ j : Fin 8, (Tb X T r j - Sb X T r j)))

/-- What the reference computes for row `r`. -/
def refRow (r : Fin 8192) : EReal :=
  Ideal.log ((∑ c : Fin 8192, if same T r c ∧ r ≠ c then Ideal.exp (-(W X r c)) else z)
    * (∑ c : Fin 8192, if ¬ same T r c then Ideal.exp (W X r c) else z))

/-- The mean of a column of 8192 row values, as both programs take it: summed from zero, divided by 8192. -/
def mean (f : Fin 8192 → EReal) : EReal := Ideal.div (z + ∑ r : Fin 8192, f r) n8192

end Cert.Spec

end
-- ==== Proof.IdealBlock.lean ====
/-
  One grid point's arithmetic read entry by entry, on the extended reals.

  For a block of 1024 query rows `x0`, a block of 1024 key rows `x1`, the query rows' labels `rt` (a column) and the key rows'
  labels `ct` (a row), entry (y, k) of the block's similarity matrix is w = min 16 (max (−16) (⟨x0 y, x1 k⟩ · γ)); the
  kernel exponentiates −w where the labels agree and w where they do not, and sums each row twice: over the columns whose
  label agrees, and over all columns. The theorems below read each of the body's named values at an entry.
-/
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealStep
import proofs.«117846_j26147760898823_2_alg».proof.Proof.LibColumn
import proofs.«117846_j26147760898823_2_alg».proof.Proof.LibAxisFold
import Idealize.ShloMosaic.PureOps.Ideal.Laws
import Idealize.ShloMosaic.Lib.ValueIdx
import Idealize.ShloMosaic.Lib.ValueLayout
import proofs.«117846_j26147760898823_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-- The kernel's contraction: both operands contracted along their second axis. -/
abbrev DD : DotDims S1024x256 S1024x256 S1024x1024 := dot_S1024x256_S1024x256_S1024x1024_1_1_0_0_n_n

theorem lhs0 (i : S1024x1024.Idx) (q : DD.contr.Idx) : (DD.lhsIdx i q 0).val = (i 0).val := by
  unfold DotDims.lhsIdx
  rw [dif_neg (show ¬(0 : Fin S1024x256.rank) ∈ DD.lhsBatch by decide), dif_pos (show (0 : Fin S1024x256.rank) ∈ DD.lhsNonContracting by decide)]
  rfl
theorem lhs1 (i : S1024x1024.Idx) (q : DD.contr.Idx) : (DD.lhsIdx i q 1).val = (q ⟨0, by decide⟩).val :=
  DD.lhsIdx_val_of_single rfl i q
theorem rhs0 (i : S1024x1024.Idx) (q : DD.contr.Idx) : (DD.rhsIdx i q 0).val = (i 1).val := by
  unfold DotDims.rhsIdx
  rw [dif_neg (show ¬(0 : Fin S1024x256.rank) ∈ DD.rhsBatch by decide), dif_pos (show (0 : Fin S1024x256.rank) ∈ DD.rhsNonContracting by decide)]
  rfl
theorem rhs1 (i : S1024x1024.Idx) (q : DD.contr.Idx) : (DD.rhsIdx i q 1).val = (q ⟨0, by decide⟩).val :=
  DD.rhsIdx_val_of_single rfl i q

/-- Entry (y, k) of the product of the query block with the transposed key block is the inner product of row y and row k. -/
theorem matmul_at (x0 x1 : FVec Ideal S1024x256 .bf16) (y k : Fin 1024) :
    matmul DD none x0 x1 (constant (F := Ideal) S1024x1024 .f32 0x00000000#32) (ix2 y k) = ∑ d : Fin 256, x0 (ix2 y d) * x1 (ix2 k d) := by
  show FloatOps.matmul DD none x0 x1 (constant (F := Ideal) S1024x1024 .f32 0x00000000#32) (ix2 y k) = _
  rw [Ideal.matmul_constant_zero_apply, ← Equiv.sum_comp (ValueIdx.contrEquiv1 DD 256 rfl rfl).symm]
  refine Finset.sum_congr rfl fun d _ => ?_
  have hk := ValueIdx.contrEquiv1_symm_val DD 256 rfl rfl d
  have el : DD.lhsIdx (ix2 y k) ((ValueIdx.contrEquiv1 DD 256 rfl rfl).symm d) = ix2 y d := funext fun a => Fin.ext (by
    match a with
    | ⟨0, _⟩ => exact lhs0 _ _
    | ⟨1, _⟩ => exact (lhs1 _ _).trans hk)
  have er : DD.rhsIdx (ix2 y k) ((ValueIdx.contrEquiv1 DD 256 rfl rfl).symm d) = ix2 k d := funext fun a => Fin.ext (by
    match a with
    | ⟨0, _⟩ => exact rhs0 _ _
    | ⟨1, _⟩ => exact (rhs1 _ _).trans hk)
  rw [el, er]

open Cert.Spec (γ lo hi z)

/-- A `[1, b]` matrix stretched to `[a, b]` reads, at `(p, q)`, the row at `(0, q)`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The scaled, clipped similarity of query row `y` and key row `k` of the two blocks, -/
def wB (x0 x1 : FVec Ideal S1024x256 .bf16) (y k : Fin 1024) : EReal :=
  min hi (max lo ((∑ d : Fin 256, x0 (ix2 y d) * x1 (ix2 k d)) * γ))
/-- whether their labels agree, as the one-bit word the comparison yields, -/
def mB (rt : Vec Ideal S1024x1 .i32) (ct : Vec Ideal S1x1024 .i32) (y k : Fin 1024) : BitVec 1 :=
  IntOp.cmpi .eq (rt (ix2 y 0)) (ct (ix2 0 k))
/-- and the kernel's one exponential for the pair. -/
def eB (x0 x1 : FVec Ideal S1024x256 .bf16) (rt : Vec Ideal S1024x1 .i32) (ct : Vec Ideal S1x1024 .i32) (y k : Fin 1024) : EReal :=
  Ideal.exp (Scalar.select (mB rt ct y k) (z - wB x0 x1 y k) (wB x0 x1 y k))
/-- The block's same-class row sum -/
def sB (x0 x1 : FVec Ideal S1024x256 .bf16) (rt : Vec Ideal S1024x1 .i32) (ct : Vec Ideal S1x1024 .i32) (y : Fin 1024) : EReal :=
  ∑ k : Fin 1024, Scalar.select (mB rt ct y k) (eB x0 x1 rt ct y k) z
/-- and its whole row sum. -/
def tB (x0 x1 : FVec Ideal S1024x256 .bf16) (rt : Vec Ideal S1024x1 .i32) (ct : Vec Ideal S1x1024 .i32) (y : Fin 1024) : EReal :=
  ∑ k : Fin 1024, eB x0 x1 rt ct y k

theorem pay7_at (rt : Vec Ideal S1024x1 .i32) (ct : Vec Ideal S1x1024 .i32) (y k : Fin 1024) :
    k0_pay7 (F := Ideal) rt ct (ix2 y k) = mB rt ct y k := by
  unfold k0_pay7 mB
  show IntOp.cmpi .eq (broadcastTo S1024x1024 (shapeCast S1024x1 rt shapeCasts_S1024x1_S1024x1) broadcasts_S1024x1_S1024x1024 (ix2 y k))
      (broadcastTo S1024x1024 (shapeCast S1x1024 ct shapeCasts_S1x1024_S1x1024) broadcasts_S1x1024_S1024x1024 (ix2 y k)) = _
  rw [shapeCast_self, shapeCast_self, Cert.LibColumn.broadcastTo_a1_ab_apply, broadcastTo_1b_ab_apply]

theorem pay8_at (x0 x1 : FVec Ideal S1024x256 .bf16) (rt : Vec Ideal S1024x1 .i32) (ct : Vec Ideal S1x1024 .i32) (y k : Fin 1024) :
    k0_pay8 (F := Ideal) x0 x1 rt ct (ix2 y k) = eB x0 x1 rt ct y k := by
  unfold k0_pay8 eB wB
  simp only [shapeCast_self]
  show Ideal.exp (Scalar.select (k0_pay7 (F := Ideal) rt ct (ix2 y k))
      (z - min hi (max lo (matmul DD none x0 x1 (constant (F := Ideal) S1024x1024 .f32 0x00000000#32) (ix2 y k) * γ)))
      (min hi (max lo (matmul DD none x0 x1 (constant (F := Ideal) S1024x1024 .f32 0x00000000#32) (ix2 y k) * γ)))) = _
  rw [pay7_at, matmul_at]

theorem pay9_at (x0 x1 : FVec Ideal S1024x256 .bf16) (rt : Vec Ideal S1024x1 .i32) (ct : Vec Ideal S1x1024 .i32) (y : Fin 1024) (u : Fin 1) :
    k0_pay9 (F := Ideal) x0 x1 rt ct (ix2 y u) = sB x0 x1 rt ct y := by
  unfold k0_pay9 sB
  rw [Cert.LibColumn.shapeCast_a_a1_apply]
  refine (Cert.LibAxisFold.sum_axis1 (A := 1024) (B := 1024) _ _ _ _ _ y).trans ?_
  refine Finset.sum_congr rfl fun k _ => ?_
  show Scalar.select (k0_pay7 (F := Ideal) rt ct (ix2 y k)) (k0_pay8 (F := Ideal) x0 x1 rt ct (ix2 y k)) z = _
  rw [pay7_at, pay8_at]

theorem pay10_at (x0 x1 : FVec Ideal S1024x256 .bf16) (rt : Vec Ideal S1024x1 .i32) (ct : Vec Ideal S1x1024 .i32) (y : Fin 1024) (u : Fin 1) :
    k0_pay10 (F := Ideal) x0 x1 rt ct (ix2 y u) = tB x0 x1 rt ct y - sB x0 x1 rt ct y := by
  unfold k0_pay10 tB
  show shapeCast S1024x1 (multiReduction .add [1] S1024 (k0_pay8 (F := Ideal) x0 x1 rt ct) 0x00000000#32 reduces_S1024x1024_S1024 (.inl rfl) rfl) shapeCasts_S1024_S1024x1 (ix2 y u)
      - k0_pay9 (F := Ideal) x0 x1 rt ct (ix2 y u) = _
  rw [Cert.LibColumn.shapeCast_a_a1_apply, pay9_at]
  exact congrArg (· - _) ((Cert.LibAxisFold.sum_axis1 (A := 1024) (B := 1024) _ _ _ _ _ y).trans
    (Finset.sum_congr rfl fun k _ => pay8_at x0 x1 rt ct y k))

/-- One more key block: the running same-class sum grows by the block's same-class row sum, -/
theorem posNext_at (x0 x1 : FVec Ideal S1024x256 .bf16) (rt : Vec Ideal S1024x1 .i32) (ct : Vec Ideal S1x1024 .i32) (p : Vec Ideal S1024x1 .f32)
    (y : Fin 1024) (u : Fin 1) : posNext (F := Ideal) x0 x1 rt ct p (ix2 y u) = p (ix2 y u) + sB x0 x1 rt ct y := by
  unfold posNext k0_pay1 k0_pay11
  rw [shapeCast_self]
  show p (ix2 y u) + k0_pay9 (F := Ideal) x0 x1 rt ct (ix2 y u) = _
  rw [pay9_at]

/-- and the running other-class sum by the rest of the block's row sum. -/
theorem negNext_at (x0 x1 : FVec Ideal S1024x256 .bf16) (rt : Vec Ideal S1024x1 .i32) (ct : Vec Ideal S1x1024 .i32) (n : Vec Ideal S1024x1 .f32)
    (y : Fin 1024) (u : Fin 1) : negNext (F := Ideal) x0 x1 rt ct n (ix2 y u) = n (ix2 y u) + (tB x0 x1 rt ct y - sB x0 x1 rt ct y) := by
  unfold negNext k0_pay2
  rw [shapeCast_self]
  show n (ix2 y u) + k0_pay10 (F := Ideal) x0 x1 rt ct (ix2 y u) = _
  rw [pay10_at]

/-- The columns restart from zero, -/
theorem pay4_at (i : S1024x1.Idx) : k0_pay4 (F := Ideal) i = z := by
  unfold k0_pay4; rw [shapeCast_self]; rfl
theorem pay5_at (i : S1024x1.Idx) : k0_pay5 (F := Ideal) i = z := by
  unfold k0_pay5; rw [shapeCast_self]; rfl
/-- the self term is exp(−clip(‖q‖²·γ)), -/
theorem pay6_at (rn : Vec Ideal S1024x1 .f32) (i : S1024x1.Idx) :
    k0_pay6 (F := Ideal) rn i = Ideal.exp (z - min hi (max lo (rn i * γ))) := by
  unfold k0_pay6; simp only [shapeCast_self]; rfl
/-- and the output entry is log((same − self) · other). -/
theorem pay3_at (p s n : Vec Ideal S1024x1 .f32) (i : S1024x1.Idx) :
    k0_pay3 (F := Ideal) p s n i = Ideal.log ((p i - s i) * n i) := rfl

end Cert.KernelIdeal.Hand
end
-- ==== Proof.IdealPoints.lean ====
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The kernel region point by point

The grid is 8 × 8: point `t` handles query-row block `t / 8` against key-row block `t % 8`. Three scratch columns are
carried from point to point within a row of blocks: the running same-class sum, the running other-class sum, and the
self term exp(−clip(‖q‖²·γ)). They restart where `t % 8 = 0`; where `t % 8 = 7` the output block takes
log((same − self) · other). Everything is stated at the contents `V` the region finds in the TensorCore's buffers. -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first-block branch is taken exactly at the points ≡ 0 (mod 8), -/
theorem hcondFirst : ∀ t : Fin cfg0.N, condFirst (grid0.coords t) ↔ t.val % 8 = 0 :=
  (by decide +kernel : ∀ t : Fin grid0.N, condFirst (grid0.coords t) ↔ t.val % 8 = 0)
/-- the last-block branch exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- Off the last key block the output window is idle and not written back; on it, it is live. -/
theorem idle5 : ∀ t : Fin cfg0.N, ¬ t.val % 8 = 7 → cfg0.idle 5 (grid0.coords t) = true := by decide +kernel
theorem noFlush5 : ∀ t : Fin cfg0.N, ¬ t.val % 8 = 7 → (cfg0.win 5).flush t = false := by decide +kernel
theorem live5 : ∀ t : Fin cfg0.N, t.val % 8 = 7 → cfg0.idle 5 (grid0.coords t) = false := by decide +kernel

/-- The three scratch columns (same-class sum, other-class sum, self term) after the body at point `n`: restarted from
    zero at the first key block of a row of blocks, advanced by the point's blocks otherwise. -/
def stAfter (c : Dev nD) : (n : ℕ) → n < cfg0.N → Vec F S1024x1 .f32 × Vec F S1024x1 .f32 × Vec F S1024x1 .f32
  | 0, hn => (posNext (iblk V c 0 ⟨0, hn⟩) (iblk V c 1 ⟨0, hn⟩) (iblk V c 2 ⟨0, hn⟩) (iblk V c 3 ⟨0, hn⟩) k0_pay4,
              negNext (iblk V c 0 ⟨0, hn⟩) (iblk V c 1 ⟨0, hn⟩) (iblk V c 2 ⟨0, hn⟩) (iblk V c 3 ⟨0, hn⟩) k0_pay5,
              k0_pay6 (iblk V c 4 ⟨0, hn⟩))
  | n + 1, hn =>
    if (n + 1) % 8 = 0 then
      (posNext (iblk V c 0 ⟨n + 1, hn⟩) (iblk V c 1 ⟨n + 1, hn⟩) (iblk V c 2 ⟨n + 1, hn⟩) (iblk V c 3 ⟨n + 1, hn⟩) k0_pay4,
       negNext (iblk V c 0 ⟨n + 1, hn⟩) (iblk V c 1 ⟨n + 1, hn⟩) (iblk V c 2 ⟨n + 1, hn⟩) (iblk V c 3 ⟨n + 1, hn⟩) k0_pay5,
       k0_pay6 (iblk V c 4 ⟨n + 1, hn⟩))
    else
      (posNext (iblk V c 0 ⟨n + 1, hn⟩) (iblk V c 1 ⟨n + 1, hn⟩) (iblk V c 2 ⟨n + 1, hn⟩) (iblk V c 3 ⟨n + 1, hn⟩) (stAfter c n (Nat.lt_of_succ_lt hn)).1,
       negNext (iblk V c 0 ⟨n + 1, hn⟩) (iblk V c 1 ⟨n + 1, hn⟩) (iblk V c 2 ⟨n + 1, hn⟩) (iblk V c 3 ⟨n + 1, hn⟩) (stAfter c n (Nat.lt_of_succ_lt hn)).2.1,
       (stAfter c n (Nat.lt_of_succ_lt hn)).2.2)

theorem stAfter_first (c : Dev nD) (t : Fin cfg0.N) (h0 : t.val % 8 = 0) :
    stAfter V c t.val t.isLt = (posNext (iblk V c 0 t) (iblk V c 1 t) (iblk V c 2 t) (iblk V c 3 t) k0_pay4,
      negNext (iblk V c 0 t) (iblk V c 1 t) (iblk V c 2 t) (iblk V c 3 t) k0_pay5, k0_pay6 (iblk V c 4 t)) := by
  obtain ⟨n, hn⟩ := t
  cases n with
  | zero => rfl
  | succ n => exact (if_pos h0).trans rfl

theorem stAfter_next (c : Dev nD) (t : Fin cfg0.N) (h0 : ¬ t.val % 8 = 0) :
    stAfter V c t.val t.isLt = (posNext (iblk V c 0 t) (iblk V c 1 t) (iblk V c 2 t) (iblk V c 3 t) (stAfter V c (t.val - 1) (Nat.lt_of_le_of_lt (Nat.sub_le _ _) t.isLt)).1,
      negNext (iblk V c 0 t) (iblk V c 1 t) (iblk V c 2 t) (iblk V c 3 t) (stAfter V c (t.val - 1) (Nat.lt_of_le_of_lt (Nat.sub_le _ _) t.isLt)).2.1,
      (stAfter V c (t.val - 1) (Nat.lt_of_le_of_lt (Nat.sub_le _ _) t.isLt)).2.2) := by
  obtain ⟨n, hn⟩ := t
  cases n with
  | zero => exact absurd (Nat.zero_mod _) h0
  | succ n => exact (if_neg h0).trans rfl

/-- What the output block takes at point `t` (consulted only at the last key block of a row of blocks). -/
def outAt (c : Dev nD) (t : Fin cfg0.N) : Vec F S1024x1 .f32 :=
  k0_pay3 (stAfter V c t.val t.isLt).1 (stAfter V c t.val t.isLt).2.2 (stAfter V c t.val t.isLt).2.1

abbrev scr0 : Memref sig .tc .vmem S1024x1 .f32 := Memref.whole cc0_scratch0
abbrev scr1 : Memref sig .tc .vmem S1024x1 .f32 := Memref.whole cc0_scratch1
abbrev scr2 : Memref sig .tc .vmem S1024x1 .f32 := Memref.whole cc0_scratch2

/-- The kernel's scoped rest is its three scratch columns, each owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The region's invariant before position `n`: at the start the scratch columns hold anything; afterwards what the
    point before left. -/
def PhiS (c : Dev nD) : (n : ℕ) → n ≤ cfg0.N → sProp 𝕄
  | 0, _ => Pipeline.ΦA spec0 c
  | n + 1, hn => iprop(iprop(owns (c : Thread nD τ) scr0 fullShare (stAfter V c n hn).1 ∗ owns (c : Thread nD τ) scr1 fullShare (stAfter V c n hn).2.1
      ∗ owns (c : Thread nD τ) scr2 fullShare (stAfter V c n hn).2.2) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scr0 fullShare (stAfter V c n hn).1 ∗ owns (c : Thread nD τ) scr1 fullShare (stAfter V c n hn).2.1
      ∗ owns (c : Thread nD τ) scr2 fullShare (stAfter V c n hn).2.2) ∗ (∃ r, prngReg c r)) := rfl
theorem PhiS_pos (c : Dev nD) (n : ℕ) (h : n ≤ cfg0.N) (hz : n ≠ 0) :
    PhiS V c n h = iprop(iprop(owns (c : Thread nD τ) scr0 fullShare (stAfter V c (n - 1) (by omega)).1 ∗ owns (c : Thread nD τ) scr1 fullShare (stAfter V c (n - 1) (by omega)).2.1
      ∗ owns (c : Thread nD τ) scr2 fullShare (stAfter V c (n - 1) (by omega)).2.2) ∗ (∃ r, prngReg c r)) := by
  cases n with
  | zero => exact absurd rfl hz
  | succ n => rfl

/-- The proof data of the pipeline on core `c`: the arrays as the region finds them; each input's buffer left at its
    block; the output's at `outAt`; the invariant `PhiS`; nothing owed. The two windows that read one array each hold
    half of it. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = outAt V c t := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 V c).before 4 t d = iblk V c 4 t :=
  ((dat0 V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem leaves_in (c : Dev nD) (w : Fin cfg0.W) (hw : w.val < 5) (t : Fin cfg0.N) :
    (dat0 V c).leavesExact w t = owns (c : Thread nD τ) ((cfg0.win w).stage (cfg0.slots t w)) fullShare ((dat0 V c).after w t) := by
  have hl : cfg0.idle w (grid0.coords t) = false := by
    obtain ⟨k, hk⟩ := w
    match k, hk, hw with
    | 0, _, _ => rfl
    | 1, _, _ => rfl
    | 2, _, _ => rfl
    | 3, _, _ => rfl
    | 4, _, _ => rfl
  unfold Dat.leavesExact; rw [hl]

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; `t % 8` says which of the three cases the point is
    in; the invariant hands over the scratch columns at what the point before left (anything at the very first point)
    and takes them back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  rw [leaves_in V c 0 (by decide) t, leaves_in V c 1 (by decide) t, leaves_in V c 2 (by decide) t, leaves_in V c 3 (by decide) t, leaves_in V c 4 (by decide) t,
    after_0, after_1, after_2, after_3, after_4]
  have hN : t.val < 64 := lt_of_lt_of_eq t.isLt (show cfg0.N = 64 from N_0)
  by_cases h0 : t.val % 8 = 0
  · have h1 : ¬ t.val % 8 = 7 := by omega
    rw [Dat.leavesExact_idle (dat0 V c) 5 t (idle5 t h1) (noFlush5 t h1), stAfter_first V c t h0]
    by_cases hz : t.val = 0
    · rw [PhiS_castSucc V c t, PhiS_zero V c _ _ hz, PhiA_eq]
      iintro ⟨⟨⟨⟨%p, HS0⟩, ⟨%n, HS1⟩, ⟨%s, HS2⟩⟩, Hg⟩, Ho, ⟨%d0, H0⟩, ⟨%d1, H1⟩, ⟨%d2, H2⟩, ⟨%d3, H3⟩, ⟨%d4, H4⟩, ⟨%d5, H5⟩⟩
      iapply (kernel_first c (grid0.coords t) Set.univ _ _ _ _ _ _ _ _ _ _ _ _ _ _ _ _ _ _ ((hcondFirst t).mpr h0) (fun h => h1 ((hcondLast t).mp h))
        (iblk V c 0 t) (iblk V c 1 t) (iblk V c 2 t) (iblk V c 3 t) (iblk V c 4 t) _ p n s _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (kernel_first c (grid0.coords t) Set.univ _ _ _ _ _ _ _ _ _ _ _ _ _ _ _ _ _ _ ((hcondFirst t).mpr h0) (fun h => h1 ((hcondLast t).mp h))
        (iblk V c 0 t) (iblk V c 1 t) (iblk V c 2 t) (iblk V c 3 t) (iblk V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [PhiS_castSucc V c t, PhiS_pos V c _ _ hz, stAfter_next V c t h0]
    by_cases h1 : t.val % 8 = 7
    · rw [show (dat0 V c).leavesExact 5 t = owns (c : Thread nD τ) (st0_5 t) fullShare ((dat0 V c).after 5 t) from by
        unfold Dat.leavesExact; rw [live5 t h1], after_5]
      unfold outAt; rw [stAfter_next V c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (kernel_last c (grid0.coords t) Set.univ _ _ _ _ _ _ _ _ _ _ _ _ _ _ _ _ _ _ (fun h => h0 ((hcondFirst t).mp h)) ((hcondLast t).mpr h1)
        (iblk V c 0 t) (iblk V c 1 t) (iblk V c 2 t) (iblk V c 3 t) (iblk V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle5 t h1) (noFlush5 t h1)]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (kernel_mid c (grid0.coords t) Set.univ _ _ _ _ _ _ _ _ _ _ _ _ _ _ _ _ _ _ (fun h => h0 ((hcondFirst t).mp h)) (fun h => h1 ((hcondLast t).mp h))
        (iblk V c 0 t) (iblk V c 1 t) (iblk V c 2 t) (iblk V c 3 t) (iblk V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point, -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the scratch columns' contents forgotten. -/
theorem hout (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA_eq]
  iintro ⟨⟨HS0, HS1, HS2⟩, Hg⟩
  isplitr [Hg]
  · isplitl [HS0]; · iexists _; iexact HS0
    isplitl [HS1]; · iexists _; iexact HS1
    iexists _; iexact HS2
  iexact Hg

end Region

end Cert.KernelIdeal.Hand
end
-- ==== Proof.IdealWindows.lean ====
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealPoints
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! # Where each block sits in its array

Point `t` of the 8 × 8 grid works on query-row block `t / 8` and key-row block `t % 8`: the first, third, fifth and
sixth windows move with the query block, the second and fourth with the key block. -/

section Windows

variable (V : (c : Dev nD) → (b : Ref sig .tc) → Buf (Elt F) ((c : Thread nD τ).loc b))

/-- The printed index maps, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

theorem t_lt (t : Fin cfg0.N) : t.val < 64 := lt_of_lt_of_eq t.isLt (show cfg0.N = 64 from N_0)

/-- The global row of local query row `y` at point `t`, -/
def rowOf (t : Fin cfg0.N) (y : Fin 1024) : Fin 8192 := ⟨t.val / 8 * 1024 + y.val, by have := t_lt t; have := y.isLt; omega⟩
/-- and the global row of local key row `k`. -/
def colOf (t : Fin cfg0.N) (k : Fin 1024) : Fin 8192 := ⟨t.val % 8 * 1024 + k.val, by have := k.isLt; omega⟩

theorem iblk0_at (c : Dev nD) (t : Fin cfg0.N) (y : Fin 1024) (d : Fin 256) :
    iblk V c 0 t (ix2 y d) = V c main_v0 (ix2 (rowOf t y) d) := by
  obtain ⟨e0, e1, -⟩ := idx_facts t
  show V c main_v0 (((cfg0.win 0).blk t).view.emb (ix2 y d)) = _
  refine congrArg _ (funext fun a => Fin.ext ?_)
  match a with
  | ⟨0, _⟩ => show win0_0.index t (0 : Fin 2) * 1024 + 1 * y.val = t.val / 8 * 1024 + y.val; omega
  | ⟨1, _⟩ => show win0_0.index t (1 : Fin 2) * 256 + 1 * d.val = d.val; omega

theorem iblk1_at (c : Dev nD) (t : Fin cfg0.N) (k : Fin 1024) (d : Fin 256) :
    iblk V c 1 t (ix2 k d) = V c main_v0 (ix2 (colOf t k) d) := by
  obtain ⟨-, -, e0, e1, -⟩ := idx_facts t
  show V c main_v0 (((cfg0.win 1).blk t).view.emb (ix2 k d)) = _
  refine congrArg _ (funext fun a => Fin.ext ?_)
  match a with
  | ⟨0, _⟩ => show win0_1.index t (0 : Fin 2) * 1024 + 1 * k.val = t.val % 8 * 1024 + k.val; omega
  | ⟨1, _⟩ => show win0_1.index t (1 : Fin 2) * 256 + 1 * d.val = d.val; omega

theorem iblk2_at (c : Dev nD) (t : Fin cfg0.N) (y : Fin 1024) (u : Fin 1) :
    iblk V c 2 t (ix2 y u) = V c main_v4 (ix2 (rowOf t y) (0 : Fin 1)) := by
  obtain ⟨-, -, -, -, e0, e1, -⟩ := idx_facts t
  show V c main_v4 (((cfg0.win 2).blk t).view.emb (ix2 y u)) = _
  refine congrArg _ (funext fun a => Fin.ext ?_)
  match a with
  | ⟨0, _⟩ => show win0_2.index t (0 : Fin 2) * 1024 + 1 * y.val = t.val / 8 * 1024 + y.val; omega
  | ⟨1, _⟩ => show win0_2.index t (1 : Fin 2) * 1 + 1 * u.val = 0; have := u.isLt; omega

theorem iblk3_at (c : Dev nD) (t : Fin cfg0.N) (u : Fin 1) (k : Fin 1024) :
    iblk V c 3 t (ix2 u k) = V c main_v5 (ix2 (0 : Fin 1) (colOf t k)) := by
  obtain ⟨-, -, -, -, -, -, e0, e1, -⟩ := idx_facts t
  show V c main_v5 (((cfg0.win 3).blk t).view.emb (ix2 u k)) = _
  refine congrArg _ (funext fun a => Fin.ext ?_)
  match a with
  | ⟨0, _⟩ => show win0_3.index t (0 : Fin 2) * 1 + 1 * u.val = 0; have := u.isLt; omega
  | ⟨1, _⟩ => show win0_3.index t (1 : Fin 2) * 1024 + 1 * k.val = t.val % 8 * 1024 + k.val; omega

theorem iblk4_at (c : Dev nD) (t : Fin cfg0.N) (y : Fin 1024) (u : Fin 1) :
    iblk V c 4 t (ix2 y u) = V c main_v3 (ix2 (rowOf t y) (0 : Fin 1)) := by
  obtain ⟨-, -, -, -, -, -, -, -, e0, e1, -⟩ := idx_facts t
  show V c main_v3 (((cfg0.win 4).blk t).view.emb (ix2 y u)) = _
  refine congrArg _ (funext fun a => Fin.ext ?_)
  match a with
  | ⟨0, _⟩ => show win0_4.index t (0 : Fin 2) * 1024 + 1 * y.val = t.val / 8 * 1024 + y.val; omega
  | ⟨1, _⟩ => show win0_4.index t (1 : Fin 2) * 1 + 1 * u.val = 0; have := u.isLt; omega

end Windows

end Cert.KernelIdeal.Hand
end
-- ==== Proof.IdealRows.lean ====
/-
  The three carried columns, unrolled.

  After point n of the grid — query-row block n / 8, key-row blocks 0 … n % 8 of that row of blocks done — the running
  same-class sum of a row is the sum of its same-class block sums so far, the running other-class sum the sum of the
  differences (whole block sum − same-class block sum), and the self term is exp(−clip(‖q‖²·γ)); all three start from the
  zero literal. Block sums are stated over the whole arrays as the region finds them, with the key block given by a
  natural number read modulo 8.
-/
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealBlock
import proofs.«117846_j26147760898823_2_alg».proof.Proof.IdealWindows
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators
open Cert.Spec (γ lo hi z)

section Rows

variable (V : (c : Dev nD) → (b : Ref sig .tc) → Buf (Elt Ideal) ((c : Thread nD τ).loc b))

/-- Column k of key block j (j read modulo 8), and row y of query block i (i read modulo 8), as rows of the whole array. -/
def colN (j : ℕ) (k : Fin 1024) : Fin 8192 := ⟨j % 8 * 1024 + k.val, by have := k.isLt; have := Nat.mod_lt j (show 0 < 8 by decide); omega⟩
def rowN (i : ℕ) (y : Fin 1024) : Fin 8192 := ⟨i % 8 * 1024 + y.val, by have := y.isLt; have := Nat.mod_lt i (show 0 < 8 by decide); omega⟩

theorem rowOf_eq (t : Fin cfg0.N) (y : Fin 1024) : rowOf t y = rowN (t.val / 8) y :=
  Fin.ext (by have := t_lt t; show t.val / 8 * 1024 + y.val = t.val / 8 % 8 * 1024 + y.val; omega)
theorem colOf_eq (t : Fin cfg0.N) (k : Fin 1024) : colOf t k = colN (t.val % 8) k :=
  Fin.ext (by show t.val % 8 * 1024 + k.val = t.val % 8 % 8 * 1024 + k.val; omega)

/-- The four arrays the region reads, as plain functions: the bf16 copy, the labels as a column and as a row, the rows' squared norms. -/
abbrev aG (c : Dev nD) : S8192x256.Idx → EReal := V c main_v0
abbrev rtG (c : Dev nD) : S8192x1.Idx → BitVec 32 := V c main_v4
abbrev ctG (c : Dev nD) : S1x8192.Idx → BitVec 32 := V c main_v5
abbrev rnG (c : Dev nD) : S8192x1.Idx → EReal := V c main_v3

/-- The scaled, clipped similarity of rows r and q of the bf16 copy; whether their labels agree; the one exponential. -/
def wG (c : Dev nD) (r q : Fin 8192) : EReal :=
  min hi (max lo ((∑ d : Fin 256, aG V c (ix2 r d) * aG V c (ix2 q d)) * γ))
def mG (c : Dev nD) (r q : Fin 8192) : BitVec 1 := IntOp.cmpi .eq (rtG V c (ix2 r (0 : Fin 1))) (ctG V c (ix2 (0 : Fin 1) q))
def eG (c : Dev nD) (r q : Fin 8192) : EReal := Ideal.exp (Scalar.select (mG V c r q) (z - wG V c r q) (wG V c r q))
/-- Row r's same-class sum over key block j, its whole sum over the block, and its self term. -/
def sGN (c : Dev nD) (r : Fin 8192) (j : ℕ) : EReal := ∑ k : Fin 1024, Scalar.select (mG V c r (colN j k)) (eG V c r (colN j k)) z
def tGN (c : Dev nD) (r : Fin 8192) (j : ℕ) : EReal := ∑ k : Fin 1024, eG V c r (colN j k)
def selfG (c : Dev nD) (r : Fin 8192) : EReal := Ideal.exp (z - min hi (max lo (rnG V c (ix2 r (0 : Fin 1)) * γ)))

/-- A point's block sums are the global ones at its row block and key block. -/
theorem sB_eq (c : Dev nD) (t : Fin cfg0.N) (y : Fin 1024) :
    sB (iblk V c 0 t) (iblk V c 1 t) (iblk V c 2 t) (iblk V c 3 t) y = sGN V c (rowOf t y) (t.val % 8) := by
  unfold sB sGN eB eG wB wG mB mG
  simp only [iblk0_at V, iblk1_at V, iblk2_at V, iblk3_at V, colOf_eq]
theorem tB_eq (c : Dev nD) (t : Fin cfg0.N) (y : Fin 1024) :
    tB (iblk V c 0 t) (iblk V c 1 t) (iblk V c 2 t) (iblk V c 3 t) y = tGN V c (rowOf t y) (t.val % 8) := by
  unfold tB tGN eB eG wB wG mB mG
  simp only [iblk0_at V, iblk1_at V, iblk2_at V, iblk3_at V, colOf_eq]
theorem self_eq (c : Dev nD) (t : Fin cfg0.N) (y : Fin 1024) (u : Fin 1) :
    k0_pay6 (F := Ideal) (iblk V c 4 t) (ix2 y u) = selfG V c (rowOf t y) := by
  rw [pay6_at, iblk4_at V]; rfl

/-- THE UNROLLING, entry (y, u) of the three columns after point n. -/
theorem acc_at (c : Dev nD) (y : Fin 1024) (u : Fin 1) : ∀ (n : ℕ) (hn : n < cfg0.N),
    (stAfter V c n hn).1 (ix2 y u) = z + ∑ j ∈ Finset.range (n % 8 + 1), sGN V c (rowN (n / 8) y) j
    ∧ (stAfter V c n hn).2.1 (ix2 y u) = z + ∑ j ∈ Finset.range (n % 8 + 1), (tGN V c (rowN (n / 8) y) j - sGN V c (rowN (n / 8) y) j)
    ∧ (stAfter V c n hn).2.2 (ix2 y u) = selfG V c (rowN (n / 8) y)
  | 0, hn => by
    have hf := stAfter_first V c ⟨0, hn⟩ rfl
    rw [show stAfter V c 0 hn = _ from hf]
    refine ⟨?_, ?_, ?_⟩
    · show posNext (F := Ideal) (iblk V c 0 ⟨0, hn⟩) (iblk V c 1 ⟨0, hn⟩) (iblk V c 2 ⟨0, hn⟩) (iblk V c 3 ⟨0, hn⟩) (k0_pay4 (F := Ideal)) (ix2 y u) = _
      rw [posNext_at, pay4_at, sB_eq V, rowOf_eq, Finset.sum_range_one]
      rfl
    · show negNext (F := Ideal) (iblk V c 0 ⟨0, hn⟩) (iblk V c 1 ⟨0, hn⟩) (iblk V c 2 ⟨0, hn⟩) (iblk V c 3 ⟨0, hn⟩) (k0_pay5 (F := Ideal)) (ix2 y u) = _
      rw [negNext_at, pay5_at, sB_eq V, tB_eq V, rowOf_eq, Finset.sum_range_one]
      rfl
    · show k0_pay6 (F := Ideal) (iblk V c 4 ⟨0, hn⟩) (ix2 y u) = _
      rw [self_eq V, rowOf_eq]
  | n + 1, hn => by
    obtain ⟨ih1, ih2, ih3⟩ := acc_at c y u n (Nat.lt_of_succ_lt hn)
    have hN : n + 1 < 64 := lt_of_lt_of_eq hn (show cfg0.N = 64 from N_0)
    by_cases h0 : (n + 1) % 8 = 0
    · have hf := stAfter_first V c ⟨n + 1, hn⟩ h0
      rw [show stAfter V c (n + 1) hn = _ from hf]
      refine ⟨?_, ?_, ?_⟩
      · show posNext (F := Ideal) (iblk V c 0 ⟨n + 1, hn⟩) (iblk V c 1 ⟨n + 1, hn⟩) (iblk V c 2 ⟨n + 1, hn⟩) (iblk V c 3 ⟨n + 1, hn⟩) (k0_pay4 (F := Ideal)) (ix2 y u) = _
        rw [posNext_at, pay4_at, sB_eq V, rowOf_eq]
        show z + sGN V c (rowN ((n + 1) / 8) y) ((n + 1) % 8) = _
        rw [h0, Finset.sum_range_one]
      · show negNext (F := Ideal) (iblk V c 0 ⟨n + 1, hn⟩) (iblk V c 1 ⟨n + 1, hn⟩) (iblk V c 2 ⟨n + 1, hn⟩) (iblk V c 3 ⟨n + 1, hn⟩) (k0_pay5 (F := Ideal)) (ix2 y u) = _
        rw [negNext_at, pay5_at, sB_eq V, tB_eq V, rowOf_eq]
        show z + (tGN V c (rowN ((n + 1) / 8) y) ((n + 1) % 8) - sGN V c (rowN ((n + 1) / 8) y) ((n + 1) % 8)) = _
        rw [h0, Finset.sum_range_one]
      · show k0_pay6 (F := Ideal) (iblk V c 4 ⟨n + 1, hn⟩) (ix2 y u) = _
        rw [self_eq V, rowOf_eq]
    · have hx := stAfter_next V c ⟨n + 1, hn⟩ h0
      rw [show stAfter V c (n + 1) hn = _ from hx]
      have hdiv : (n + 1) / 8 = n / 8 := by omega
      have hmod : (n + 1) % 8 = n % 8 + 1 := by omega
      refine ⟨?_, ?_, ?_⟩
      · show posNext (F := Ideal) (iblk V c 0 ⟨n + 1, hn⟩) (iblk V c 1 ⟨n + 1, hn⟩) (iblk V c 2 ⟨n + 1, hn⟩) (iblk V c 3 ⟨n + 1, hn⟩)
            (stAfter V c n (Nat.lt_of_succ_lt hn)).1 (ix2 y u) = _
        rw [posNext_at, ih1, sB_eq V, rowOf_eq]
        show z + ∑ j ∈ Finset.range (n % 8 + 1), sGN V c (rowN (n / 8) y) j + sGN V c (rowN ((n + 1) / 8) y) ((n + 1) % 8) = _
        rw [hdiv, hmod, Finset.sum_range_succ _ (n % 8 + 1), add_assoc]
      · show negNext (F := Ideal) (iblk V c 0 ⟨n + 1, hn⟩) (iblk V c 1 ⟨n + 1, hn⟩) (iblk V c 2 ⟨n + 1, hn⟩) (iblk V c 3 ⟨n + 1, hn⟩)
            (stAfter V c n (Nat.lt_of_succ_lt hn)).2.1 (ix2 y u) = _
        rw [negNext_at, ih2, sB_eq V, tB_eq V, rowOf_eq]
        show z + ∑ j ∈ Finset.range (n % 8 + 1), (tGN V c (rowN (n / 8) y) j - sGN V c (rowN (n / 8) y) j)
            + (tGN V c (rowN ((n + 1) / 8) y) ((n + 1) % 8) - sGN V c (rowN ((n + 1) / 8) y) ((n + 1) % 8)) = _
        rw [hdiv, hmod, Finset.sum_range_succ _ (n % 8 + 1), add_assoc]
      · show (stAfter V c n (Nat.lt_of_succ_lt hn)).2.2 (ix2 y u) = _
        rw [ih3, hdiv]

/-- What the region leaves for row r: log((same-class sum − self term) · other-class sum), the sums over the 8 key blocks. -/
def rowG (c : Dev nD) (r : Fin 8192) : EReal :=
  Ideal.log (((z + ∑ j ∈ Finset.range 8, sGN V c r j) - selfG V c r) * (z + ∑ j ∈ Finset.range 8, (tGN V c r j - sGN V c r j)))

/-- At the last key block of a row of blocks the output block's entry (y, u) is that value for its row. -/
theorem outAt_at (c : Dev nD) (t : Fin cfg0.N) (h7 : t.val % 8 = 7) (y : Fin 1024) (u : Fin 1) :
    outAt V c t (ix2 y u) = rowG V c (rowOf t y) := by
  obtain ⟨h1, h2, h3⟩ := acc_at V c y u t.val t.isLt
  unfold outAt rowG
  rw [pay3_at, h1, h2, h3, h7, rowOf_eq]

end Rows

end Cert.KernelIdeal.Hand
end
-- ==== Proof.IdealColumn.lean ====
/-
  The result column after the region.

  The output window is written back once per row of blocks, at its last key block, and those eight write-backs tile the
  8192 × 1 result array; each carries, for its 1024 rows, the value log((same − self) · other) the unrolling gives. So
  the array ends holding that value at every row.
-/
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealRows
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

section Column

variable (V : (c : Dev nD) → (b : Ref sig .tc) → Buf (Elt Ideal) ((c : Thread nD τ).loc b))

/-- The result column: row r holds `rowG` of r. -/
def colG (c : Dev nD) : S8192x1.Idx → EReal := fun i => rowG V c (i 0)

/-- WHAT A FLUSHING POINT WRITES BACK is its block of the column. -/
theorem flushed_eq (c : Dev nD) (t : Fin cfg0.N) (hf : (cfg0.win 5).flush t = true) :
    (dat0 V c).flushed 5 t = ((cfg0.win 5).blk t).view.read (Elt Ideal) (colG V c) := by
  have h7 : t.val % 8 = 7 := (flush0_5 t).mp hf
  obtain ⟨-, -, -, -, -, -, -, -, -, -, e0, e1⟩ := idx_facts t
  show (cfg0.win 5).cut (grid0.coords t) ((dat0 V c).after 5 t) = _
  rw [after_5]
  funext j
  obtain ⟨y, u, rfl⟩ : ∃ (y : Fin 1024) (u : Fin 1), j = ix2 y u := ⟨j 0, j 1, eq_ix2 j⟩
  show outAt V c t (ix2 y u) = rowG V c ((((cfg0.win 5).blk t).view.emb (ix2 y u)) 0)
  rw [outAt_at V c t h7 y u]
  refine congrArg (rowG V c) (Fin.ext ?_)
  show t.val / 8 * 1024 + y.val = win0_5.index t (0 : Fin 2) * 1024 + 1 * y.val
  omega

/-- An index of the column is in point t's block iff each coordinate is in the block's range. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v6).slice (win0_5.rect t)).set ↔ _
  rw [View.set_slice_whole, Rect.mem_set_unit]
  exact Iff.rfl

/-- Every row is in the block of the last point of its row of blocks. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  let t : Fin cfg0.N := ⟨(i 0).val / 1024 * 8 + 7, by rw [show cfg0.N = 64 from N_0]; omega⟩
  have h7 : t.val % 8 = 7 := by show ((i 0).val / 1024 * 8 + 7) % 8 = 7; omega
  obtain ⟨-, -, -, -, -, -, -, -, -, -, e0, e1⟩ := idx_facts t
  have ht : t.val / 8 = (i 0).val / 1024 := by show ((i 0).val / 1024 * 8 + 7) / 8 = (i 0).val / 1024; omega
  refine ⟨t, (flush0_5 t).mpr h7, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- THE RESULT ARRAY after the region. -/
theorem final5 (c : Dev nD) : (dat0 V c).arrAt 5 cfg0.N = colG V c :=
  (dat0 V c).arrAt_eq_of_cover 5 (colG V c) (fun t hf => flushed_eq V c t hf) cover5

end Column

end Cert.KernelIdeal.Hand
end
-- ==== Proof.IdealRun.lean ====
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealPoints
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

/-! # The whole program as three segments

@main is a stretch of host operations (the bf16 copy of the inputs, the rows' squared norms, the two reshapes of the
labels), the kernel region, and a second stretch (the mean of the region's result). The buffer contents at each
boundary are named; the region takes the contents at its entry as the parameter of the point-by-point description. The
bf16 copy is read by two windows of the region, each of which holds half of it while the region runs. -/

section Run

variable (m : (ℓ : Loc nD τ sig) → Buf (Elt F) ℓ) (ρ : Dev nD → PrngReg)

/-- Core `c`'s buffers at launch, -/
abbrev W0 : Dev nD → Valuation τ sig (Elt F) := fun c b => m (c, b)
/-- after the first host stretch (the region's entry), -/
abbrev W1 : Dev nD → Valuation τ sig (Elt F) := fun c => StableHlo.after hostOps0 (W0 m c)
/-- the same read at the TensorCore's references, -/
abbrev V1 : (c : Dev nD) → (b : Ref sig .tc) → Buf (Elt F) ((c : Thread nD τ).loc b) := fun c b => W1 m c b
/-- at the region's exit: only the result array has changed, to what the write-backs leave, -/
def W2 (c : Dev nD) : Valuation τ sig (Elt F) :=
  Function.update (W1 m c) (Proc.devRef .tc main_v6) ((dat0 (V1 m) c).arrAt 5 cfg0.N)
abbrev V2 : (c : Dev nD) → (b : Ref sig .tc) → Buf (Elt F) ((c : Thread nD τ).loc b) := fun c b => W2 m c b
/-- and after the second host stretch. -/
abbrev W3 : Dev nD → Valuation τ sig (Elt F) := fun c => StableHlo.after hostOps1 (W2 m c)

theorem W2_out (c : Dev nD) : W2 m c (Proc.devRef .tc main_v6) = (dat0 (V1 m) c).arrAt 5 cfg0.N := by
  unfold W2; exact Function.update_self ..
theorem W2_of_ne (c : Dev nD) (b : Ref sig .tc) (hb : b ≠ main_v6) : W2 m c (Proc.devRef .tc b) = W1 m c (Proc.devRef .tc b) := by
  unfold W2; exact Function.update_of_ne (StableHlo.devRef_ne_of_ne hb) ..

/-! ## The region's arrays in and out of the thread state -/

/-- The five distinct buffers behind the six windows, listed. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v4) ↦{fullShare} V main_v4)
          ∗ (((c : Thread nD τ).loc main_v5) ↦{fullShare} V main_v5) ∗ (((c : Thread nD τ).loc main_v3) ↦{fullShare} V main_v3)
          ∗ (((c : Thread nD τ).loc main_v6) ↦{fullShare} V main_v6)) := by
  unfold Pipeline.arrBufs
  exact Idealize.SL.BI.bigSep_eq_bigSepL_of_eq [main_v0, main_v4, main_v5, main_v3, main_v6] (by decide) (by decide) _

/-- The six windows' arrays, listed, each at its share: the two readers of the bf16 copy hold a half each. -/
theorem arrays_eq (c : Dev nD) (V : (c : Dev nD) → (b : Ref sig .tc) → Buf (Elt F) ((c : Thread nD τ).loc b))
    (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v4) ↦{fullShare} G 2) ∗ (((c : Thread nD τ).loc main_v5) ↦{fullShare} G 3)
          ∗ (((c : Thread nD τ).loc main_v3) ↦{fullShare} G 4) ∗ (((c : Thread nD τ).loc main_v6) ↦{fullShare} G 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rfl

/-- ENTRY: the unscoped buffers at the entry contents are the region's arrays at those contents (the bf16 copy split
    between its two readers) and the rest. -/
theorem entry_arrays (c : Dev nD) :
    (unscopedBufs c (V1 m c) : sProp 𝕄)
      ⊢ iprop((dat0 (V1 m) c).arrays ((dat0 (V1 m) c).arrAt · 0) ∗ Pipeline.unscopedRest (Ix := Unit) (Name := ℕ) (U := UR sig nD τ) (Lvl := ℕ) spec0 c (V1 m c)) := by
  rw [Pipeline.unscopedBufs_split₀ cfgs (0 : Fin 1) winFacts₀0.arr_unscoped c (V1 m c), arrBufs_eq, arrays_eq]
  iintro ⟨⟨H0, H4, H5, H3, H6⟩, Hr⟩
  ihave H0' := (pointsTo_share (PosShare.mem_left_op_right fullShare)).1 $$ H0
  icases H0' with ⟨H0l, H0r⟩
  isplitr [Hr]
  · isplitl [H0l]; · iexact H0l
    isplitl [H0r]; · iexact H0r
    isplitl [H4]; · iexact H4
    isplitl [H5]; · iexact H5
    isplitl [H3]; · iexact H3
    iexact H6
  iexact Hr

/-- EXIT: the arrays at what the region leaves (the inputs as entered, the result at its write-backs) and the rest make
    the unscoped buffers at the exit contents. -/
theorem exit_arrays (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs c (V2 m c) : sProp 𝕄) := by
  have hrest : (Pipeline.unscopedRest (Ix := Unit) (Name := ℕ) (U := UR sig nD τ) (Lvl := ℕ) spec0 c (V2 m c) : sProp 𝕄)
      = Pipeline.unscopedRest spec0 c (V1 m c) := by
    unfold Pipeline.unscopedRest
    refine bigSep_congr fun b hb => ?_
    have hne : b ≠ main_v6 := fun e => (Finset.mem_sdiff.mp hb).2 (Finset.mem_image.mpr ⟨5, Finset.mem_univ _, e.symm⟩)
    rw [show V2 m c b = V1 m c b from W2_of_ne m c b hne]
  rw [Pipeline.unscopedBufs_split₀ cfgs (0 : Fin 1) winFacts₀0.arr_unscoped c (V2 m c), arrBufs_eq, arrays_eq, hrest]
  rw [(dat0 (V1 m) c).arrAt_in 0 rfl, (dat0 (V1 m) c).arrAt_in 1 rfl, (dat0 (V1 m) c).arrAt_in 2 rfl, (dat0 (V1 m) c).arrAt_in 3 rfl, (dat0 (V1 m) c).arrAt_in 4 rfl]
  rw [show V2 m c main_v0 = V1 m c main_v0 from W2_of_ne m c main_v0 (by decide), show V2 m c main_v4 = V1 m c main_v4 from W2_of_ne m c main_v4 (by decide),
    show V2 m c main_v5 = V1 m c main_v5 from W2_of_ne m c main_v5 (by decide), show V2 m c main_v3 = V1 m c main_v3 from W2_of_ne m c main_v3 (by decide),
    show V2 m c main_v6 = (dat0 (V1 m) c).arrAt 5 cfg0.N from W2_out m c]
  iintro ⟨⟨H0l, H0r, H4, H5, H3, H6⟩, Hr⟩
  isplitr [Hr]
  · isplitl [H0l H0r]
    · iapply (pointsTo_share (PosShare.mem_left_op_right fullShare)).2
      isplitl [H0l]; · iexact H0l
      iexact H0r
    isplitl [H4]; · iexact H4
    isplitl [H5]; · iexact H5
    isplitl [H3]; · iexact H3
    iexact H6
  iexact Hr

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- The kernel region over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest (Ix := Unit) (Name := ℕ) (U := UR sig nD τ) (Lvl := ℕ) spec0 c (V1 m c)) := entry_arrays m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m) c)
    unfold Pipeline.ΦA
    iintro ⟨Hp, -, Hr⟩
    isplitl [Hr]; · iexact Hr
    iexact Hp
  hout c := by
    rw [Pipeline.ownSems0_none]
    refine BIBase.Entails.trans (hout (V1 m) c) ?_
    unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
          ∗ Pipeline.unscopedRest (Ix := Unit) (Name := ℕ) (U := UR sig nD τ) (Lvl := ℕ) spec0 c (V1 m c))
        ⊢ (unscopedBufs c (V2 m c) : sProp 𝕄) := exit_arrays m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of the TensorCore ends at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Run

end Cert.KernelIdeal.Hand
end
-- ==== Proof.IdealFrame.lean ====
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealRun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The arguments end as launched

No host operation writes an argument array and the region changes only its result array, so the last boundary's
contents at the two arguments are the launch memory; with the run, that is the frame claim. -/

section Frame

variable (m : (ℓ : Loc nD τ sig) → Buf (Elt F) ℓ) (ρ : Dev nD → PrngReg)

theorem hostOps0_keeps (b : Ref sig .tc) (hb : b ≠ main_v0 ∧ b ≠ main_v1 ∧ b ≠ main_cst ∧ b ≠ main_v2 ∧ b ≠ main_v3 ∧ b ≠ main_v4 ∧ b ≠ main_v5)
    (V : Valuation τ sig (Elt F)) : StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    obtain ⟨h0, h1, h2, h3, h4, h5, h6⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6⟩))

theorem hostOps1_keeps (b : Ref sig .tc) (hb : b ≠ main_cst_0 ∧ b ≠ main_v7 ∧ b ≠ main_cst_1 ∧ b ≠ main_v8)
    (V : Valuation τ sig (Elt F)) : StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    obtain ⟨h0, h1, h2, h3⟩ := hb
    exact ⟨StableHlo.devRef_ne_of_ne h0, StableHlo.devRef_ne_of_ne h1, StableHlo.devRef_ne_of_ne h2, StableHlo.devRef_ne_of_ne h3⟩))

theorem W3_main_arg0 (c : Dev nD) : W3 m c (Proc.devRef .tc main_arg0) = m ((c : Thread nD τ).loc main_arg0) :=
  (hostOps1_keeps main_arg0 (by decide) _).trans ((W2_of_ne m c main_arg0 (by decide)).trans (hostOps0_keeps main_arg0 (by decide) _))
theorem W3_main_arg1 (c : Dev nD) : W3 m c (Proc.devRef .tc main_arg1) = m ((c : Thread nD τ).loc main_arg1) :=
  (hostOps1_keeps main_arg1 (by decide) _).trans ((W2_of_ne m c main_arg1 (by decide)).trans (hostOps0_keeps main_arg1 (by decide) _))

/-- THE FRAME at any instance: @main terminates, nothing faulting, both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W3_main_arg0 m c),
    (h c _ (mem_uc main_arg1 (by decide))).trans (W3_main_arg1 m c)⟩) (run_all m ρ)

end Frame

end Cert.KernelIdeal.Hand
end
-- ==== Proof.IdealHost.lean ====
/-
  The host operations around the kernel region, read entry by entry on the extended reals.

  Before the region the program makes, from the inputs x (8192 rows of 256 numbers) and the labels: a copy of x in a
  narrower float format, which on the extended reals is x itself; the column of the rows' squared norms,
  0 + Σ_d x(r, d)², stored as an 8192 × 1 matrix; and the labels reshaped to an 8192 × 1 column and to a 1 × 8192 row,
  each keeping label p at the position whose row-major rank is p. After the region the program sums the region's
  8192 × 1 result over both axes from zero and divides by 8192: the mean of the 8192 row values.
-/
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealFrame
import proofs.«117846_j26147760898823_2_alg».proof.Proof.LibColumn
import proofs.«117846_j26147760898823_2_alg».proof.Proof.Spec
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo Idealize.ShloMosaic.ValueIdx
open scoped BigOperators

section Host

variable (m : (ℓ : Loc nD τ sig) → Buf (Elt Ideal) ℓ)

/-- The inputs at launch: the 8192 × 256 matrix of numbers, -/
abbrev Xa (c : Dev nD) : S8192x256.Idx → EReal := m ((c : Thread nD τ).loc main_arg0)
/-- and the 8192 labels. -/
abbrev Ta (c : Dev nD) : S8192.Idx → BitVec 32 := m ((c : Thread nD τ).loc main_arg1)

/-- The copy in the narrower format is the input: on the extended reals a change of format is the identity. -/
theorem V1_v0_at (c : Dev nD) (i : S8192x256.Idx) : V1 m c main_v0 i = Xa m c i := by
  show StableHlo.after hostOps0 (W0 m c) (Proc.devRef .tc main_v0) i = _
  after_results
  rfl

/-- The column of squared norms at row `r`: zero plus the sum over the 256 entries of the row of their squares. -/
theorem V1_v3_at (c : Dev nD) (r : Fin 8192) (u : Fin 1) :
    V1 m c main_v3 (ix2 r u) = Cert.Spec.z + ∑ d : Fin 256, Xa m c (ix2 r d) * Xa m c (ix2 r d) := by
  show StableHlo.after hostOps0 (W0 m c) (Proc.devRef .tc main_v3) (ix2 r u) = _
  after_results
  rw [Cert.LibColumn.broadcastInDim_a_a1_apply]
  simp only [Host.reduceAdd, Ideal.hostReduceAdd_def]
  rw [Ideal.hostReduceAdd_single reducesTo_S8192x256_S8192_d1 (by decide)]
  refine congrArg₂ (· + ·) rfl (Finset.sum_congr rfl fun k _ => ?_)
  -- the index (r) of the result, with k put back on the summed axis, is (r, k)
  have hk : ∀ (h : S8192x256.Reduces [1] S8192), h.lift (ix1 r) k = ix2 r k := fun h =>
    funext fun a => Fin.ext (by match a with | ⟨0, _⟩ => rfl | ⟨1, _⟩ => rfl)
  rw [hk]
  rfl

/-- The labels as an 8192 × 1 column: entry (r, 0) is label r. -/
theorem V1_v4_at (c : Dev nD) (r : Fin 8192) (u : Fin 1) : V1 m c main_v4 (ix2 r u) = Ta m c (ix1 r) := by
  show StableHlo.after hostOps0 (W0 m c) (Proc.devRef .tc main_v4) (ix2 r u) = _
  after_results
  exact Cert.LibColumn.shapeCast_a_a1_apply _ _ r u

/-- The labels as a 1 × 8192 row: entry (0, q) is label q, both having row-major rank q. -/
theorem V1_v5_at (c : Dev nD) (u : Fin 1) (q : Fin 8192) : V1 m c main_v5 (ix2 u q) = Ta m c (ix1 q) := by
  show StableHlo.after hostOps0 (W0 m c) (Proc.devRef .tc main_v5) (ix2 u q) = _
  after_results
  show shapeCast S1x8192 (Ta m c) shapeCasts_S8192_S1x8192 (ix2 u q) = Ta m c (ix1 q)
  refine shapeCast_apply _ _ _ _ ?_
  have hu : u.val = 0 := by omega
  rw [Shape.rowMajor_val_two, Shape.rowMajor_val_one]
  show q.val = u.val * 8192 + q.val
  rw [hu, Nat.zero_mul, Nat.zero_add]

/-- The program's result is the mean of the region's 8192 row values: the sum over both axes of an 8192 × 1 matrix is
    the sum over its rows of the entry in the only column. -/
theorem W3_result (c : Dev nD) : W3 m c (Proc.devRef .tc main_v8)
    = fun _ => Cert.Spec.mean (fun r => W2 m c (Proc.devRef .tc main_v6) (ix2 r (0 : Fin 1))) := by
  show StableHlo.after hostOps1 (W2 m c) (Proc.devRef .tc main_v8) = _
  after_results
  funext i
  simp only [Host.divf, Host.reduceAdd, Ideal.hostReduceAdd_def, Ideal.hostDivf_def]
  rw [Ideal.hostReduceAdd_total reducesTo_S8192x1_S_d0_1 (fun b => b.elim0) _ _ i, sum_idx2]
  simp only [Fin.sum_univ_one]
  rfl

end Host

end Cert.KernelIdeal.Hand
end
-- ==== Proof.RefRow.lean ====
/-
  The reference program read as the specification, and finiteness of the inputs from the precondition.

  The reference forms the scaled, clipped similarity W r c of every pair of rows, keeps exp(−W r c) where the two rows
  carry the same label and r ≠ c, keeps exp(W r c) where the labels differ, sums each of the two along the row, takes
  the logarithm of the product of the two sums, and averages the 8192 row values. Read one entry at a time this is
  exactly `Cert.Spec.mean (Cert.Spec.refRow x0 x1)`.

  The precondition says that the absolute value of every entry of the first input lies strictly below +∞; an
  extended real with that property is a real number.
-/
import proofs.«117846_j26147760898823_2_alg».proof.Proof.Spec
import proofs.«117846_j26147760898823_2_alg».proof.Proof.Gen.ReferenceIdeal.Read
import proofs.«117846_j26147760898823_2_alg».proof.Proof.Gen.Pre_finite_inputs
import Idealize.ShloMosaic.Lib.ReduceAll
import Idealize.ShloMosaic.Lib.Affine

noncomputable section

namespace Cert.RefRow

open Idealize.ShloMosaic Idealize.ShloMosaic.ValueIdx
open scoped BigOperators

section Reference

/-! ## Indices: the reference's composed index maps are the coordinate constructors -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

open Cert.ReferenceIdeal Cert.ReferenceIdeal.Read

theorem lidx_eq (r c : Fin 8192) (k : Fin 256) : lidx_main_v1 (ix2 r c) k = ix2 r k :=
  funext fun a => Fin.ext (by match a with | ⟨0, _⟩ => rfl | ⟨1, _⟩ => rfl)

theorem ridx_eq (r c : Fin 8192) (k : Fin 256) : idx_main_v0 (ridx_main_v1 (ix2 r c) k) = ix2 c k :=
  funext fun a => Fin.ext (by match a with | ⟨0, _⟩ => rfl | ⟨1, _⟩ => rfl)

theorem rowLabel_eq (r c : Fin 8192) : idx_main_v5 (idx_main_v7 (ix2 r c)) = ix1 r :=
  funext fun a => Fin.ext (by match a with | ⟨0, _⟩ => rfl)

theorem colLabel_eq (r c : Fin 8192) : idx_main_v6 (idx_main_v8 (ix2 r c)) = ix1 c :=
  funext fun a => Fin.ext (by match a with | ⟨0, _⟩ => rfl)

theorem idx21_eq (r c : Fin 8192) : idx_main_v21 (ix1 r) c = ix2 r c :=
  funext fun a => Fin.ext (by match a with | ⟨0, _⟩ => rfl | ⟨1, _⟩ => rfl)

theorem idx24_eq (r c : Fin 8192) : idx_main_v24 (ix1 r) c = ix2 r c :=
  funext fun a => Fin.ext (by match a with | ⟨0, _⟩ => rfl | ⟨1, _⟩ => rfl)

variable (x0 : (⟨Cert.ReferenceIdeal.S8192x256, .f32⟩ : BufTy).Contents (Elt Ideal))
  (x1 : (⟨Cert.ReferenceIdeal.S8192, .i32⟩ : BufTy).Contents (Elt Ideal))

/-! ## The clipped similarity -/

theorem W_eq (r c : Fin 8192) : val_main_v4 (F := Ideal) x0 (ix2 r c) = Cert.Spec.W x0 r c := by
  rw [val_main_v4_apply, val_main_call0_v4_apply, val_main_call0_v3_apply, val_main_cst_1_apply,
    val_main_call0_v2_apply, val_main_call0_v1_apply, val_main_call0_v0_apply, val_main_cst_0_apply,
    val_main_v3_apply, val_main_v1_apply, val_main_v2_apply, val_main_cst_apply]
  simp only [val_main_v0_apply, lidx_eq, ridx_eq]
  rfl

/-! ## The two masks -/

/-- The label comparison at `(r, c)` is true exactly when rows `r` and `c` are of the same class. -/
theorem same_bit (r c : Fin 8192) : val_main_v9 (F := Ideal) x1 (ix2 r c) = 1#1 ↔ Cert.Spec.same x1 r c := by
  rw [val_main_v9_apply, val_main_v7_apply, val_main_v5_apply, val_main_v8_apply, val_main_v6_apply, IntOp.cmpi_eq,
    rowLabel_eq, colLabel_eq]
  rfl

/-- Two numbers below 8192 written as 32-bit words are equal words only when they are equal. -/
theorem ofNat_inj (r c : Fin 8192) (e : BitVec.ofNat 32 r.val = BitVec.ofNat 32 c.val) : r = c := by
  have hr := r.isLt
  have hc := c.isLt
  have e' := congrArg BitVec.toNat e
  rw [BitVec.toNat_ofNat, BitVec.toNat_ofNat, Nat.mod_eq_of_lt (by omega), Nat.mod_eq_of_lt (by omega)] at e'
  exact Fin.ext e'

/-- The negated comparison of the row counter (plus zero) with the column counter is true exactly off the diagonal. -/
theorem diag_bit (r c : Fin 8192) : val_main_v15 (F := Ideal) (ix2 r c) = 1#1 ↔ r ≠ c := by
  rw [val_main_v15_apply, IntOp.not_eq_one, val_main_v14_apply, IntOp.cmpi_eq, val_main_v13_apply, val_main_v10_apply,
    val_main_v12_apply, val_main_c_apply, val_main_v11_apply]
  show ¬(BitVec.ofNat 32 r.val + 0#32 = BitVec.ofNat 32 c.val) ↔ r ≠ c
  rw [BitVec.add_zero]
  constructor
  · intro h e
    exact h (by rw [e])
  · intro h e
    exact h (ofNat_inj r c e)

/-- The mask of the first sum: same class and off the diagonal. -/
theorem pos_bit (r c : Fin 8192) :
    val_main_v16 (F := Ideal) x1 (ix2 r c) = 1#1 ↔ (Cert.Spec.same x1 r c ∧ r ≠ c) := by
  rw [val_main_v16_apply, IntOp.andi_eq_one, same_bit, diag_bit]

/-- The mask of the second sum: different classes. -/
theorem neg_bit (r c : Fin 8192) : val_main_v17 (F := Ideal) x1 (ix2 r c) = 1#1 ↔ ¬ Cert.Spec.same x1 r c := by
  rw [val_main_v17_apply, IntOp.not_eq_one, same_bit]

/-! ## The two masked exponentials and their row sums -/

/-- The zero pattern denotes zero. -/
theorem z_eq : Cert.Spec.z = 0 := by simp [Cert.Spec.z, Ideal.ofBits, Ideal.ieee]

theorem pos_term (r c : Fin 8192) : val_main_v20 (F := Ideal) x0 x1 (ix2 r c)
    = if Cert.Spec.same x1 r c ∧ r ≠ c then Ideal.exp (-(Cert.Spec.W x0 r c)) else Cert.Spec.z := by
  rw [val_main_v20_apply]
  by_cases h : Cert.Spec.same x1 r c ∧ r ≠ c
  · rw [(pos_bit x1 r c).mpr h, select_one, if_pos h, val_main_v19_apply, val_main_v18_apply, W_eq]
    rfl
  · rw [eq_zero_of_ne_one (fun e => h ((pos_bit x1 r c).mp e)), select_zero, if_neg h, val_main_call1_v1_apply,
      val_main_call1_v0_apply, val_main_cst_2_apply]
    rfl

theorem neg_term (r c : Fin 8192) : val_main_v23 (F := Ideal) x0 x1 (ix2 r c)
    = if ¬ Cert.Spec.same x1 r c then Ideal.exp (Cert.Spec.W x0 r c) else Cert.Spec.z := by
  rw [val_main_v23_apply]
  by_cases h : ¬ Cert.Spec.same x1 r c
  · rw [(neg_bit x1 r c).mpr h, select_one, if_pos h, val_main_v22_apply, W_eq]
    rfl
  · rw [eq_zero_of_ne_one (fun e => h ((neg_bit x1 r c).mp e)), select_zero, if_neg h, val_main_call2_v1_apply,
      val_main_call2_v0_apply, val_main_cst_4_apply]
    rfl

theorem pos_sum (r : Fin 8192) : val_main_v21 (F := Ideal) x0 x1 (ix1 r)
    = ∑ c : Fin 8192, if Cert.Spec.same x1 r c ∧ r ≠ c then Ideal.exp (-(Cert.Spec.W x0 r c)) else Cert.Spec.z := by
  rw [val_main_v21_apply, val_main_cst_3_apply]
  have hz : FloatOps.ofBits (F := Ideal) .f32 0x00000000#32 = 0 := z_eq
  rw [hz, zero_add]
  refine Finset.sum_congr rfl fun c _ => ?_
  rw [idx21_eq, pos_term]

theorem neg_sum (r : Fin 8192) : val_main_v24 (F := Ideal) x0 x1 (ix1 r)
    = ∑ c : Fin 8192, if ¬ Cert.Spec.same x1 r c then Ideal.exp (Cert.Spec.W x0 r c) else Cert.Spec.z := by
  rw [val_main_v24_apply, val_main_cst_5_apply]
  have hz : FloatOps.ofBits (F := Ideal) .f32 0x00000000#32 = 0 := z_eq
  rw [hz, zero_add]
  refine Finset.sum_congr rfl fun c _ => ?_
  rw [idx24_eq, neg_term]

/-! ## One row, and the mean of the rows -/

theorem row_eq (r : Fin 8192) : val_main_v26 (F := Ideal) x0 x1 (ix1 r) = Cert.Spec.refRow x0 x1 r := by
  rw [val_main_v26_apply, val_main_v25_apply, pos_sum, neg_sum]
  rfl

/-- The reference program's result is the mean of the reference row formula. -/
theorem ref_value (x0 : (⟨Cert.ReferenceIdeal.S8192x256, .f32⟩ : BufTy).Contents (Elt Ideal))
    (x1 : (⟨Cert.ReferenceIdeal.S8192, .i32⟩ : BufTy).Contents (Elt Ideal)) :
    Cert.ReferenceIdeal.Read.val_main_v28 (F := Ideal) x0 x1 = fun _ => Cert.Spec.mean (Cert.Spec.refRow x0 x1) := by
  funext i
  rw [val_main_v28_apply, val_main_v27_apply, val_main_cst_6_apply, val_main_cst_7_apply, sum_idx1]
  have hs : ∑ r : Fin 8192, val_main_v26 (F := Ideal) x0 x1 (ix1 r) = ∑ r : Fin 8192, Cert.Spec.refRow x0 x1 r :=
    Finset.sum_congr rfl fun r _ => row_eq x0 x1 r
  rw [hs]
  rfl

end Reference

/-! ## Finiteness from the precondition -/

/-- The result shape of a reduction over all axes has a single index. -/
instance : Subsingleton Cert.Pre_finite_inputs.S_.Idx := ⟨fun _ _ => funext fun d => d.elim0⟩

/-- An extended real whose absolute value lies strictly below `+∞` is a real number: it is neither `+∞` (its own
    value would be `+∞`) nor `−∞` (its negative would be). -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The single-precision pattern with every exponent bit set and an empty fraction denotes `+∞`. -/
theorem inf_lit : Ideal.ofBits .f32 0x7F800000#32 = (⊤ : EReal) := by simp [Ideal.ofBits, Ideal.ieee]

/-- Under the precondition (`|x| < +∞` at every entry, all of them joined by `and`) every entry of the first input is
    a real number. -/
theorem finite_of_pre [Cert.Pre_finite_inputs.Facts]
    (x0 : (⟨Cert.ReferenceIdeal.S8192x256, .f32⟩ : BufTy).Contents (Elt Ideal))
    (x1 : (⟨Cert.ReferenceIdeal.S8192, .i32⟩ : BufTy).Contents (Elt Ideal))
    (h : Cert.Pre_finite_inputs.fn (F := Ideal) x0 x1 = fun _ => 1#1) :
    ∀ i, ∃ x : ℝ, x0 i = (x : EReal) := by
  intro i
  have h0 := congrFun h ValueIdx.ix0
  dsimp only [Cert.Pre_finite_inputs.fn] at h0
  -- the conjunction over all entries is true, so the comparison at entry `i` is
  have hi := Host.reduce_andi_all _ _ _ _ _ h0 i
  have hc : Ideal.cmp .olt (max (x0 i) (-(x0 i))) (Ideal.ofBits .f32 0x7F800000#32) = 1#1 := hi
  rw [inf_lit] at hc
  refine real_of_abs_lt_top (x0 i) ?_
  by_contra hn
  have h0' : Ideal.cmp .olt (max (x0 i) (-(x0 i))) ⊤ = 0#1 := by
    simp only [Ideal.cmp, decide_eq_false hn]
    rfl
  rw [h0'] at hc
  exact absurd hc (by decide)

end Cert.RefRow

end
-- ==== Proof.IdealValue.lean ====
/-
  The kernel program's result is the mean of the specification's kernel rows.

  At the region's entry the four arrays it reads are functions of the two inputs: the bf16 copy is the input itself (a
  change of float format is the identity on the extended reals), the two label arrays are the labels laid out as a column
  and as a row, and the squared-norm column is zero plus the sum of squares of the row. Substituting these in the row
  value the region leaves, and dropping the zero the sums start from, gives the specification's `kernelRow`; the tail of
  @main averages the column.
-/
import proofs.«117846_j26147760898823_2_alg».proof.Proof.Gen.KernelIdeal.Launch
import proofs.«117846_j26147760898823_2_alg».proof.Proof.Gen.KernelIdeal.Skeleton
import proofs.«117846_j26147760898823_2_alg».proof.Proof.Gen.KernelIdeal.Points
import proofs.«117846_j26147760898823_2_alg».proof.Proof.IdealColumn
import proofs.«117846_j26147760898823_2_alg».proof.Proof.IdealHost
import proofs.«117846_j26147760898823_2_alg».proof.Proof.RefRow
import Idealize.ShloMosaic.Lib.Affine
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators
open Cert.Spec (γ lo hi z)

section Value

variable (m : (ℓ : Loc nD τ sig) → Buf (Elt Ideal) ℓ) (ρ : Dev nD → PrngReg)

/-- A select on the word of an equality test is a choice on the equality. -/
theorem select_cmpi {α : Type} (a b : BitVec 32) (p q : α) :
    Scalar.select (IntOp.cmpi .eq a b) p q = if a = b then p else q := by
  unfold Scalar.select
  by_cases h : a = b
  · rw [if_pos h]; exact if_pos (IntOp.cmpi_eq.mpr h)
  · rw [if_neg h]; exact if_neg (fun e => h (IntOp.cmpi_eq.mp e))

/-- Key block j's column k is the specification's, for j below 8. -/
theorem colN_eq (j : Fin 8) (k : Fin 1024) : colN j.val k = Cert.Spec.col j k :=
  Fin.ext (by have := j.isLt; show j.val % 8 * 1024 + k.val = j.val * 1024 + k.val; omega)

theorem wG_eq (c : Dev nD) (r q : Fin 8192) : wG (V1 m) c r q = Cert.Spec.W (Xa m c) r q := by
  unfold wG Cert.Spec.W
  have h : ∀ (r' : Fin 8192) (d : Fin 256), aG (V1 m) c (ix2 r' d) = Xa m c (ix2 r' d) := fun r' d => V1_v0_at m c (ix2 r' d)
  simp only [h]

theorem mG_select {α : Type} (c : Dev nD) (r q : Fin 8192) (p p' : α) :
    Scalar.select (mG (V1 m) c r q) p p' = if Cert.Spec.same (Ta m c) r q then p else p' := by
  unfold mG
  have h4 : rtG (V1 m) c (ix2 r (0 : Fin 1)) = Ta m c (ix1 r) := V1_v4_at m c r 0
  have h5 : ctG (V1 m) c (ix2 (0 : Fin 1) q) = Ta m c (ix1 q) := V1_v5_at m c 0 q
  rw [h4, h5, select_cmpi]
  rfl

theorem eG_eq (c : Dev nD) (r q : Fin 8192) : eG (V1 m) c r q = Cert.Spec.e (Xa m c) (Ta m c) r q := by
  unfold eG Cert.Spec.e
  rw [mG_select, wG_eq]

theorem sGN_eq (c : Dev nD) (r : Fin 8192) (j : Fin 8) : sGN (V1 m) c r j.val = Cert.Spec.Sb (Xa m c) (Ta m c) r j := by
  unfold sGN Cert.Spec.Sb
  refine Finset.sum_congr rfl fun k _ => ?_
  rw [mG_select, eG_eq, colN_eq]

theorem tGN_eq (c : Dev nD) (r : Fin 8192) (j : Fin 8) : tGN (V1 m) c r j.val = Cert.Spec.Tb (Xa m c) (Ta m c) r j := by
  unfold tGN Cert.Spec.Tb
  refine Finset.sum_congr rfl fun k _ => ?_
  rw [eG_eq, colN_eq]

theorem selfG_eq (c : Dev nD) (r : Fin 8192) : selfG (V1 m) c r = Ideal.exp (z - Cert.Spec.W (Xa m c) r r) := by
  unfold selfG Cert.Spec.W
  have h3 : rnG (V1 m) c (ix2 r (0 : Fin 1)) = z + ∑ d : Fin 256, Xa m c (ix2 r d) * Xa m c (ix2 r d) := V1_v3_at m c r 0
  rw [h3, Cert.RefRow.z_eq, zero_add]

/-- The row value the region leaves is the specification's kernel row. -/
theorem rowG_eq (c : Dev nD) (r : Fin 8192) : rowG (V1 m) c r = Cert.Spec.kernelRow (Xa m c) (Ta m c) r := by
  unfold rowG Cert.Spec.kernelRow
  rw [selfG_eq, Finset.sum_range, Finset.sum_range]
  simp only [sGN_eq, tGN_eq]
  rw [Cert.RefRow.z_eq, zero_add, zero_add]

/-- THE KERNEL PROGRAM'S VALUE: @main terminates, nothing faulting, with the result at the mean of the kernel rows and
    both arguments as launched. -/
theorem value_run : θ_run defs (onTc (τ := τ) (main (F := Ideal))) ⟨m, fun _ => 0, ρ⟩ (fun r => ∀ c : Dev nD,
      r.2.mem ((c.tc : Thread nD τ).loc main_v8) = (fun _ => Cert.Spec.mean (Cert.Spec.kernelRow (Xa m c) (Ta m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
      rw [h c _ (mem_uc main_v8 (by decide)), W3_result]
      funext _
      refine congrArg Cert.Spec.mean (funext fun r' => ?_)
      rw [W2_out, final5]
      exact rowG_eq m c r',
    (h c _ (mem_uc main_arg0 (by decide))).trans (W3_main_arg0 m c),
    (h c _ (mem_uc main_arg1 (by decide))).trans (W3_main_arg1 m c)⟩) (run_all m ρ)

end Value

end Cert.KernelIdeal.Hand
end
-- ==== Proof.LibRealLift.lean ====
/-
Reading a computation on finite extended reals as the real computation.

The embedding of the real numbers into the extended reals commutes with every operation used
here as long as the operation stays away from its corner cases: finite sums, division by a
nonzero real, the reciprocal square root and the logarithm of a positive real, the exponential,
and the maximum.  Addition, subtraction and multiplication of two embedded reals are already
covered by `EReal.coe_add`, `EReal.coe_sub` and `EReal.coe_mul`.
-/
import Mathlib.Data.EReal.Operations
import Mathlib.Data.EReal.Inv
import Mathlib.Algebra.BigOperators.Group.Finset.Basic
import Idealize.ShloMosaic.PureOps.Ideal

noncomputable section

open Idealize.ShloMosaic
open scoped BigOperators

namespace Cert.LibRealLift

/-- A finite sum of embedded reals is the embedded real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of two embedded reals is the embedded real sum (`EReal.coe_add`, restated in the
    direction that collects the embedding outside). -/
theorem add_coe (a b : ℝ) : (a : EReal) + (b : EReal) = ((a + b : ℝ) : EReal) :=
  (EReal.coe_add a b).symm

/-- The difference of two embedded reals is the embedded real difference (`EReal.coe_sub`). -/
theorem sub_coe (a b : ℝ) : (a : EReal) - (b : EReal) = ((a - b : ℝ) : EReal) :=
  (EReal.coe_sub a b).symm

/-- The product of two embedded reals is the embedded real product (`EReal.coe_mul`). -/
theorem mul_coe (a b : ℝ) : (a : EReal) * (b : EReal) = ((a * b : ℝ) : EReal) :=
  (EReal.coe_mul a b).symm

/-- Dividing an embedded real by a nonzero embedded real is the embedded real quotient. -/
theorem div_coe_coe (a b : ℝ) (hb : b ≠ 0) :
    Ideal.div (a : EReal) (b : EReal) = ((a / b : ℝ) : EReal) := by
  rw [Ideal.div_coe hb, ← EReal.coe_mul, mul_one_div]

/-- The reciprocal square root of a positive embedded real is the embedded real reciprocal
    square root. -/
theorem rsqrt_coe_pos (a : ℝ) (ha : 0 < a) :
    Ideal.rsqrt (a : EReal) = (((Real.sqrt a)⁻¹ : ℝ) : EReal) := by
  rw [Ideal.rsqrt_coe, if_neg (not_lt.mpr ha.le), if_neg ha.ne']

/-- The exponential of an embedded real is the embedded real exponential. -/
theorem exp_coe (a : ℝ) : Ideal.exp (a : EReal) = ((Real.exp a : ℝ) : EReal) :=
  Ideal.exp_coe a

/-- The logarithm of a positive embedded real is the embedded real logarithm. -/
theorem log_coe_pos (a : ℝ) (ha : 0 < a) :
    Ideal.log (a : EReal) = ((Real.log a : ℝ) : EReal) := by
  rw [Ideal.log_coe, if_neg (not_le.mpr ha)]

/-- The maximum of two embedded reals is the embedded real maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

end Cert.LibRealLift
-- ==== Proof.RowLaw.lean ====
/-
  The law joining the two row formulas.

  With every input a real number, the scaled, clipped similarity W r c is a real number w(c): the
  three literals it is built from denote reals, and finite sums, products, maxima and minima of
  reals are reals.  Put a(c) = exp(−w(c)) and b(c) = exp(w(c)).  The kernel's exponential is a(c) on
  the columns of the row's class and b(c) on the others, so

    Σ_j Sb j        = Σ_j Σ_k [same] a(col j k)     = Σ_c [same] a(c),
    Σ_j (Tb j − Sb j) = Σ_j Σ_k [not same] b(col j k) = Σ_c [not same] b(c),

  because (j, k) ↦ j · 1024 + k is a bijection from the 8 blocks of 1024 columns onto the 8192
  columns.  Row r is of its own class, so subtracting a(r) from the first sum leaves
  Σ_{c same, c ≠ r} a(c); this cancellation is valid because every term is a real number.  Both
  formulas are therefore the logarithm of the same product of two real numbers.
-/
import Mathlib.Data.EReal.Operations
import Mathlib.Algebra.BigOperators.Fin
import Mathlib.Logic.Equiv.Fin.Basic
import Mathlib.Analysis.SpecialFunctions.Exp
import proofs.«117846_j26147760898823_2_alg».proof.Proof.Spec
import proofs.«117846_j26147760898823_2_alg».proof.Proof.LibRealLift

noncomputable section

namespace Cert.RowLaw

open Idealize.ShloMosaic Idealize.ShloMosaic.ValueIdx Cert.Spec Cert.LibRealLift
open scoped BigOperators

/-- The minimum of two embedded reals is the embedded real minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A pattern whose exponent field is not all ones denotes a real number. -/
theorem ieee_real (e m : Nat) {w : Nat} (b : BitVec w)
    (h : (b.extractLsb' m e).toNat ≠ 2 ^ e - 1) : ∃ g : ℝ, Ideal.ieee e m b = (g : EReal) := by
  unfold Ideal.ieee
  simp only []
  rw [if_neg h]
  split_ifs <;> exact ⟨_, rfl⟩

theorem γ_real : ∃ g : ℝ, γ = (g : EReal) := by
  unfold γ Ideal.ofBits; exact ieee_real 8 23 _ (by decide)
theorem lo_real : ∃ g : ℝ, lo = (g : EReal) := by
  unfold lo Ideal.ofBits; exact ieee_real 8 23 _ (by decide)
theorem hi_real : ∃ g : ℝ, hi = (g : EReal) := by
  unfold hi Ideal.ofBits; exact ieee_real 8 23 _ (by decide)

/-- The all-zero pattern denotes the real number zero. -/
theorem z_eq : z = ((0 : ℝ) : EReal) := by
  unfold z Ideal.ofBits Ideal.ieee
  simp

/-- Summing over the 8 blocks of 1024 columns is summing over all 8192 columns:
    (j, k) ↦ j · 1024 + k is a bijection. -/
theorem sum_col {M : Type*} [AddCommMonoid M] (f : Fin 8192 → M) :
    ∑ j : Fin 8, ∑ k : Fin 1024, f (col j k) = ∑ c : Fin 8192, f c := by
  rw [← Fintype.sum_prod_type']
  refine Fintype.sum_equiv (finProdFinEquiv (m := 8) (n := 1024)) _ _ (fun x => ?_)
  congr 1
  apply Fin.ext
  simp [col, finProdFinEquiv]
  omega

/-- With real inputs the scaled, clipped similarity is a real number. -/
theorem W_real (X : (⟨2, ![8192, 256]⟩ : Shape).Idx → EReal)
    (hX : ∀ i, ∃ x : ℝ, X i = (x : EReal)) (r c : Fin 8192) :
    ∃ w : ℝ, W X r c = (w : EReal) := by
  choose x hx using hX
  obtain ⟨g, hg⟩ := γ_real
  obtain ⟨l, hl⟩ := lo_real
  obtain ⟨h, hh⟩ := hi_real
  unfold W
  have hs : (∑ d : Fin 256, X (ix2 r d) * X (ix2 c d))
      = ((∑ d : Fin 256, x (ix2 r d) * x (ix2 c d) : ℝ) : EReal) := by
    rw [← coe_sum]
    exact Finset.sum_congr rfl (fun d _ => by rw [hx, hx, mul_coe])
  rw [hs, hg, hl, hh, mul_coe, max_coe, min_coe]
  exact ⟨_, rfl⟩

/-- Removing the term of an index that satisfies the predicate: the full restricted sum minus that
    term is the sum restricted further to the other indices. -/
theorem sum_sub_self {n : ℕ} (P : Fin n → Prop) [DecidablePred P] (r : Fin n) (hr : P r)
    (a : Fin n → ℝ) :
    (∑ c, if P c then a c else 0) - a r = ∑ c, if P c ∧ r ≠ c then a c else 0 := by
  have h : ∀ c, (if P c then a c else 0)
      = (if P c ∧ r ≠ c then a c else 0) + (if r = c then a r else 0) := by
    intro c
    by_cases hc : r = c
    · subst hc; simp [hr]
    · simp [hc]
  rw [Finset.sum_congr rfl (fun c _ => h c), Finset.sum_add_distrib,
    Finset.sum_ite_eq Finset.univ r, if_pos (Finset.mem_univ r), add_sub_cancel_right]

/-- The whole sum minus its part on the predicate is its part off the predicate. -/
theorem sum_sub_part {ι : Type*} (s : Finset ι) (P : ι → Prop) [DecidablePred P] (a b : ι → ℝ) :
    (∑ k ∈ s, if P k then a k else b k) - (∑ k ∈ s, if P k then a k else 0)
      = ∑ k ∈ s, if ¬ P k then b k else 0 := by
  rw [← Finset.sum_sub_distrib]
  refine Finset.sum_congr rfl (fun k _ => ?_)
  by_cases hk : P k <;> simp [hk]

/-- The two row formulas agree on real inputs. -/
theorem kernelRow_eq_refRow (X : (⟨2, ![8192, 256]⟩ : Shape).Idx → EReal)
    (T : (⟨1, ![8192]⟩ : Shape).Idx → BitVec 32)
    (hX : ∀ i, ∃ x : ℝ, X i = (x : EReal)) (r : Fin 8192) :
    Cert.Spec.kernelRow X T r = Cert.Spec.refRow X T r := by
  choose w hw using fun c => W_real X hX r c
  -- the kernel's exponential, entry by entry
  have he : ∀ c, e X T r c
      = ((if same T r c then Real.exp (-(w c)) else Real.exp (w c) : ℝ) : EReal) := by
    intro c
    unfold e
    rw [hw c]
    by_cases hc : same T r c
    · rw [if_pos hc, if_pos hc, z_eq, sub_coe, zero_sub, exp_coe]
    · rw [if_neg hc, if_neg hc, exp_coe]
  have hSb : ∀ j, Sb X T r j
      = ((∑ k : Fin 1024, if same T r (col j k) then Real.exp (-(w (col j k))) else 0 : ℝ) : EReal) := by
    intro j
    unfold Sb
    rw [← coe_sum]
    refine Finset.sum_congr rfl (fun k _ => ?_)
    by_cases hc : same T r (col j k)
    · rw [if_pos hc, if_pos hc, he, if_pos hc]
    · rw [if_neg hc, if_neg hc, z_eq]
  have hTb : ∀ j, Tb X T r j
      = ((∑ k : Fin 1024, if same T r (col j k) then Real.exp (-(w (col j k)))
            else Real.exp (w (col j k)) : ℝ) : EReal) := by
    intro j
    unfold Tb
    rw [← coe_sum]
    exact Finset.sum_congr rfl (fun k _ => he _)
  have hTS : ∀ j, Tb X T r j - Sb X T r j
      = ((∑ k : Fin 1024, if ¬ same T r (col j k) then Real.exp (w (col j k)) else 0 : ℝ) : EReal) := by
    intro j
    rw [hTb, hSb, sub_coe,
      sum_sub_part Finset.univ (fun k => same T r (col j k)) (fun k => Real.exp (-(w (col j k))))
        (fun k => Real.exp (w (col j k)))]
  -- the kernel's two factors
  have hK1 : (∑ j : Fin 8, Sb X T r j) - Ideal.exp (z - W X r r)
      = ((∑ c : Fin 8192, if same T r c ∧ r ≠ c then Real.exp (-(w c)) else 0 : ℝ) : EReal) := by
    rw [Finset.sum_congr rfl (fun j _ => hSb j), coe_sum,
      sum_col (fun c => if same T r c then Real.exp (-(w c)) else 0),
      hw r, z_eq, sub_coe, zero_sub, exp_coe, sub_coe,
      sum_sub_self (fun c => same T r c) r rfl (fun c => Real.exp (-(w c)))]
  have hK2 : (∑ j : Fin 8, (Tb X T r j - Sb X T r j))
      = ((∑ c : Fin 8192, if ¬ same T r c then Real.exp (w c) else 0 : ℝ) : EReal) := by
    rw [Finset.sum_congr rfl (fun j _ => hTS j), coe_sum,
      sum_col (fun c => if ¬ same T r c then Real.exp (w c) else 0)]
  -- the reference's two factors
  have hR1 : (∑ c : Fin 8192, if same T r c ∧ r ≠ c then Ideal.exp (-(W X r c)) else z)
      = ((∑ c : Fin 8192, if same T r c ∧ r ≠ c then Real.exp (-(w c)) else 0 : ℝ) : EReal) := by
    rw [← coe_sum]
    refine Finset.sum_congr rfl (fun c _ => ?_)
    by_cases hc : same T r c ∧ r ≠ c
    · rw [if_pos hc, if_pos hc, hw c, ← EReal.coe_neg, exp_coe]
    · rw [if_neg hc, if_neg hc, z_eq]
  have hR2 : (∑ c : Fin 8192, if ¬ same T r c then Ideal.exp (W X r c) else z)
      = ((∑ c : Fin 8192, if ¬ same T r c then Real.exp (w c) else 0 : ℝ) : EReal) := by
    rw [← coe_sum]
    refine Finset.sum_congr rfl (fun c _ => ?_)
    by_cases hc : ¬ same T r c
    · rw [if_pos hc, if_pos hc, hw c, exp_coe]
    · rw [if_neg hc, if_neg hc, z_eq]
  unfold kernelRow refRow
  rw [hK1, hK2, hR1, hR2]

end Cert.RowLaw

end
-- ==== Proof.lean ====
/-
  The certificate of the batch-hard loss kernel against its jnp reference, over the extended reals.

  Per query row r the two programs compute, with W r c = min 16 (max (−16) (⟨x_r, x_c⟩ · γ)):
    kernel:     log( (Σ_{c same class} e^{−W r c} − e^{−W r r}) · Σ_j (Σ_{c in block j} e_c − Σ_{c in block j, same class} e_c) ),
                e_c = e^{−W r c} on same-class columns and e^{W r c} on the others, the columns swept in 8 blocks of 1024;
    reference:  log( Σ_{c same class, c ≠ r} e^{−W r c} · Σ_{c other class} e^{W r c} ),
  and both average the 8192 rows. For finite inputs every term is a positive real, the self term cancels exactly and the
  per-block differences are the other-class sums, so the rows agree (Proof/RowLaw.lean); finiteness is what the
  precondition gives (Proof/RefRow.lean, which also reads the reference's 48 operations as the row formula).

  The kernel side: each grid point's body run on whole staging buffers (Proof/IdealStep.lean, Proof/BitsStep.lean), the
  region point by point with the three scratch columns carried in its invariant (…Points), @main as host stretch –
  region – host stretch with the bf16 copy of the inputs shared half and half between the two windows that read it
  (…Run, …Frame), and, on the extended reals, the blocks' arithmetic entry by entry (IdealBlock), the blocks' places in
  their arrays (IdealWindows), the columns unrolled over a row of blocks (IdealRows), the result column (IdealColumn),
  the host stretches (IdealHost) and the value of @main (IdealValue).
-/
import proofs.«117846_j26147760898823_2_alg».proof.Defs
import proofs.«117846_j26147760898823_2_alg».proof.Proof.Gen.Kernel
import proofs.«117846_j26147760898823_2_alg».proof.Proof.Gen.Kernel.Skeleton
import proofs.«117846_j26147760898823_2_alg».proof.Proof.Gen.Kernel.Launch
import proofs.«117846_j26147760898823_2_alg».proof.Proof.Gen.Kernel.Points
import proofs.«117846_j26147760898823_2_alg».proof.Proof.Gen.KernelIdeal
import proofs.«117846_j26147760898823_2_alg».proof.Proof.Gen.KernelIdeal.Skeleton
import proofs.«117846_j26147760898823_2_alg».proof.Proof.Gen.KernelIdeal.Launch
import proofs.«117846_j26147760898823_2_alg».proof.Proof.Gen.KernelIdeal.Points
import proofs.«117846_j26147760898823_2_alg».proof.Proof.Gen.ReferenceIdeal
import proofs.«117846_j26147760898823_2_alg».proof.Proof.Gen.Pre_finite_inputs
import proofs.«117846_j26147760898823_2_alg».proof.Proof.Gen.ReferenceIdeal.Run
import proofs.«117846_j26147760898823_2_alg».proof.Proof.Gen.ReferenceIdeal.Read
import proofs.«117846_j26147760898823_2_alg».proof.Proof.BitsFrame
import proofs.«117846_j26147760898823_2_alg».proof.Proof.IdealValue
import proofs.«117846_j26147760898823_2_alg».proof.Proof.RowLaw
import proofs.«117846_j26147760898823_2_alg».proof.Proof.RefRow
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the inputs, both programs end at the mean of the kernel rows: the kernel program by its
    value, the reference by its row formula and the law joining the two rows, whose finiteness hypothesis is the
    precondition. -/
theorem algebraic : Cert.algebraic_KernelIdeal_ReferenceIdeal := by
  intro m ρ m' ρ' hpre hagree
  refine ⟨fun c => fun _ => Cert.Spec.mean (Cert.Spec.kernelRow (Cert.KernelIdeal.Hand.Xa m c) (Cert.KernelIdeal.Hand.Ta m c)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _).trans ?_
  rw [Cert.RefRow.ref_value, (hagree c).1, (hagree c).2]
  funext _
  refine congrArg Cert.Spec.mean (funext fun r => ?_)
  exact (Cert.RowLaw.kernelRow_eq_refRow _ _ (Cert.RefRow.finite_of_pre _ _ (hpre c)) r).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
